-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4096x2048 : Shape := ⟨3, ![1, 4096, 2048]⟩
abbrev S2048x2048 : Shape := ⟨2, ![2048, 2048]⟩
abbrev S2048 : Shape := ⟨1, ![2048]⟩
abbrev S_ : Shape := ⟨0, ![]⟩

class Facts : Prop where
  bcast_S_S1x4096x2048 : S_.BroadcastsInDim S1x4096x2048 (![] : Fin 0 → Fin S1x4096x2048.rank)
  reducesTo_S1x4096x2048_S_d0_1_2 : S1x4096x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part4 {F : FTy → Type} [FloatOps F] (main_arg14 : FVec F S2048 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  main_v73

def fn_part3 {F : FTy → Type} [FloatOps F] (main_arg11 : FVec F S2048 .f32) (main_arg12 : FVec F S2048 .f32) (main_arg13 : FVec F S2048 .f32) (main_arg14 : FVec F S2048 .f32) (main_v48 : IVec S_ 1) (main_v49 : FVec F S2048x2048 .f32) (main_v50 : FVec F S2048x2048 .f32) : IVec S_ 1 :=
  let main_v51 : IVec S2048x2048 1 := cmpf .olt main_v49 main_v50
  let main_c_19 : IVec S_ 1 := constantI S_ 1 1#1
  let main_v52 : IVec S_ 1 := (fun x v => Host.reduce IntOp.andi x v reducesTo_S2048x2048_S_d0_1 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048 .f32 := Host.absf main_arg13
  let main_cst_24 : FVec F S_ .f32 := constant S_ .f32 0x7F800000#32
  let main_v65 : FVec F S2048 .f32 := broadcastInDim S2048 ![] bcast_S_S2048 main_cst_24
  let main_v66 : IVec S2048 1 := cmpf .olt main_v64 main_v65
  let main_c_25 : IVec S_ 1 := constantI S_ 1 1#1
  let main_v67 : IVec S_ 1 := (fun x v => Host.reduce IntOp.andi x v reducesTo_S2048_S_d0 h_S_) main_v66 main_c_25
  fn_part4 (F := F) main_arg14 main_v63 main_v67

def fn_part2 {F : FTy → Type} [FloatOps F] (main_arg7 : FVec F S2048x2048 .f32) (main_arg8 : FVec F S2048x2048 .f32) (main_arg9 : FVec F S2048x2048 .f32) (main_arg10 : FVec F S2048x2048 .f32) (main_arg11 : FVec F S2048 .f32) (main_arg12 : FVec F S2048 .f32) (main_arg13 : FVec F S2048 .f32) (main_arg14 : FVec F S2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048x2048 .f32 := Host.absf main_arg10
  let main_cst_18 : FVec F S_ .f32 := constant S_ .f32 0x7F800000#32
  let main_v50 : FVec F S2048x2048 .f32 := broadcastInDim S2048x2048 ![] bcast_S_S2048x2048 main_cst_18
  fn_part3 (F := F) main_arg11 main_arg12 main_arg13 main_arg14 main_v48 main_v49 main_v50

def fn_part1 {F : FTy → Type} [FloatOps F] (main_arg4 : FVec F S2048x2048 .f32) (main_arg5 : FVec F S2048x2048 .f32) (main_arg6 : FVec F S2048x2048 .f32) (main_arg7 : FVec F S2048x2048 .f32) (main_arg8 : FVec F S2048x2048 .f32) (main_arg9 : FVec F S2048x2048 .f32) (main_arg10 : FVec F S2048x2048 .f32) (main_arg11 : FVec F S2048 .f32) (main_arg12 : FVec F S2048 .f32) (main_arg13 : FVec F S2048 .f32) (main_arg14 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S1x4096x2048 .f32) (main_arg1 : FVec F S1x4096x2048 .f32) (main_arg2 : FVec F S1x4096x2048 .f32) (main_arg3 : FVec F S2048x2048 .f32) (main_arg4 : FVec F S2048x2048 .f32) (main_arg5 : FVec F S2048x2048 .f32) (main_arg6 : FVec F S2048x2048 .f32) (main_arg7 : FVec F S2048x2048 .f32) (main_arg8 : FVec F S2048x2048 .f32) (main_arg9 : FVec F S2048x2048 .f32) (main_arg10 : FVec F S2048x2048 .f32) (main_arg11 : FVec F S2048 .f32) (main_arg12 : FVec F S2048 .f32) (main_arg13 : FVec F S2048 .f32) (main_arg14 : FVec F S2048 .f32) : IVec S_ 1 :=
  let main_v0 : FVec F S1x4096x2048 .f32 := Host.absf main_arg0
  let main_cst : FVec F S_ .f32 := constant S_ .f32 0x7F800000#32
  let main_v1 : FVec F S1x4096x2048 .f32 := broadcastInDim S1x4096x2048 ![] bcast_S_S1x4096x2048 main_cst
  let main_v2 : IVec S1x4096x2048 1 := cmpf .olt main_v0 main_v1
  let main_c : IVec S_ 1 := constantI S_ 1 1#1
  let main_v3 : IVec S_ 1 := (fun x v => Host.reduce IntOp.andi x v reducesTo_S1x4096x2048_S_d0_1_2 h_S_) main_v2 main_c
  let main_v4 : FVec F S1x4096x2048 .f32 := Host.absf main_arg1
  let main_cst_0 : FVec F S_ .f32 := constant S_ .f32 0x7F800000#32
  let main_v5 : FVec F S1x4096x2048 .f32 := broadcastInDim S1x4096x2048 ![] bcast_S_S1x4096x2048 main_cst_0
  let main_v6 : IVec S1x4096x2048 1 := cmpf .olt main_v4 main_v5
  let main_c_1 : IVec S_ 1 := constantI S_ 1 1#1
  let main_v7 : IVec S_ 1 := (fun x v => Host.reduce IntOp.andi x v reducesTo_S1x4096x2048_S_d0_1_2 h_S_) main_v6 main_c_1
  let main_v8 : IVec S_ 1 := andi main_v3 main_v7
  let main_v9 : FVec F S1x4096x2048 .f32 := Host.absf main_arg2
  let main_cst_2 : FVec F S_ .f32 := constant S_ .f32 0x7F800000#32
  let main_v10 : FVec F S1x4096x2048 .f32 := broadcastInDim S1x4096x2048 ![] bcast_S_S1x4096x2048 main_cst_2
  let main_v11 : IVec S1x4096x2048 1 := cmpf .olt main_v9 main_v10
  let main_c_3 : IVec S_ 1 := constantI S_ 1 1#1
  let main_v12 : IVec S_ 1 := (fun x v => Host.reduce IntOp.andi x v reducesTo_S1x4096x2048_S_d0_1_2 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S1x4096x2048 : Shape := ⟨3, ![1, 4096, 2048]⟩
abbrev S2048x2048 : Shape := ⟨2, ![2048, 2048]⟩
abbrev S2048 : Shape := ⟨1, ![2048]⟩
abbrev S4096x2048 : Shape := ⟨2, ![4096, 2048]⟩
abbrev S1x2048 : Shape := ⟨2, ![1, 2048]⟩
abbrev S4x2048 : Shape := ⟨2, ![4, 2048]⟩
abbrev S256x2048 : Shape := ⟨2, ![256, 2048]⟩
abbrev S256x256 : Shape := ⟨2, ![256, 256]⟩
abbrev S2048x256 : Shape := ⟨2, ![2048, 256]⟩
abbrev S4x256 : Shape := ⟨2, ![4, 256]⟩
abbrev S1x256 : Shape := ⟨2, ![1, 256]⟩

abbrev nBuf : Space → Nat
  | .hbm => 29
  | .vmem => 28
  | .smem => 0
  | _ => 0

abbrev bufTy : (tb : Table) → Fin (tcTables nBuf tb) → BufTy
  | .hbm, ⟨0, _⟩ => ⟨S1x4096x2048, .f32⟩
  | .hbm, ⟨1, _⟩ => ⟨S1x4096x2048, .f32⟩
  | .hbm, ⟨2, _⟩ => ⟨S1x4096x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S4096x2048, .f32⟩
  | .hbm, ⟨16, _⟩ => ⟨S4096x2048, .bf16⟩
  | .hbm, ⟨17, _⟩ => ⟨S4096x2048, .f32⟩
  | .hbm, ⟨18, _⟩ => ⟨S4096x2048, .bf16⟩
  | .hbm, ⟨19, _⟩ => ⟨S4096x2048, .f32⟩
  | .hbm, ⟨20, _⟩ => ⟨S1x2048, .f32⟩
  | .hbm, ⟨21, _⟩ => ⟨S1x2048, .f32⟩
  | .hbm, ⟨22, _⟩ => ⟨S1x2048, .f32⟩
  | .hbm, ⟨23, _⟩ => ⟨S1x2048, .f32⟩
  | .hbm, ⟨24, _⟩ => ⟨S4x2048, .f32⟩
  | .hbm, ⟨25, _⟩ => ⟨S4096x2048, .f32⟩
  | .hbm, ⟨26, _⟩ => ⟨S4096x2048, .f32⟩
  | .hbm, ⟨27, _⟩ => ⟨S1x4096x2048, .f32⟩
  | .hbm, ⟨28, _⟩ => ⟨S1x4096x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x256, .f32⟩
  | .local _ .vmem, ⟨5, _⟩ => ⟨S256x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S2048x256, .f32⟩
  | .local _ .vmem, ⟨15, _⟩ => ⟨S2048x256, .f32⟩
  | .local _ .vmem, ⟨16, _⟩ => ⟨S2048x256, .f32⟩
  | .local _ .vmem, ⟨17, _⟩ => ⟨S2048x256, .f32⟩
  | .local _ .vmem, ⟨18, _⟩ => ⟨S2048x256, .f32⟩
  | .local _ .vmem, ⟨19, _⟩ => ⟨S2048x256, .f32⟩
  | .local _ .vmem, ⟨20, _⟩ => ⟨S2048x256, .f32⟩
  | .local _ .vmem, ⟨21, _⟩ => ⟨S2048x256, .f32⟩
  | .local _ .vmem, ⟨22, _⟩ => ⟨S4x256, .f32⟩
  | .local _ .vmem, ⟨23, _⟩ => ⟨S4x256, .f32⟩
  | .local _ .vmem, ⟨24, _⟩ => ⟨S256x256, .f32⟩
  | .local _ .vmem, ⟨25, _⟩ => ⟨S256x256, .f32⟩
  | .local _ .vmem, ⟨26, _⟩ => ⟨S256x256, .f32⟩
  | .local _ .vmem, ⟨27, _⟩ => ⟨S256x256, .f32⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10_0 : Ref sig .tc := ⟨.hbm, 25, rfl⟩
abbrev main_v10_1 : Ref sig .tc := ⟨.hbm, 26, rfl⟩
abbrev main_v11 : Ref sig .tc := ⟨.hbm, 27, rfl⟩
abbrev main_v12 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2048x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S4x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

class Facts₀ : Prop where
  shapeCasts_S1x4096x2048_S4096x2048 : S1x4096x2048.ShapeCasts S4096x2048
  bitsLt_bf16_f32 : FTy.bits .bf16 < FTy.bits .f32
  bcast_S2048_S1x2048_1 : S2048.BroadcastsInDim S1x2048 (![1] : Fin 1 → Fin S1x2048.rank)
  concatenates_S1x2048_S1x2048_S1x2048_S1x2048_S4x2048_d0 : Shape.Concatenates [S1x2048, S1x2048, S1x2048, S1x2048] S4x2048 0
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S2048x256_S2048x256_0_0 : ∀ a, (![0, 0] : Fin 2 → Nat) a + S2048x256.size a ≤ S2048x256.size a
  h_S2048x256 : 0 < S2048x256.numel
  inb_S4x256_S1x256_0_0 : ∀ a, (![0, 0] : Fin 2 → Nat) a + S1x256.size a ≤ S4x256.size a
  h_S1x256 : 0 < S1x256.numel
  shapeCasts_S1x256_S1x256 : S1x256.ShapeCasts S1x256
  broadcasts_S1x256_S256x256 : S1x256.Broadcasts S256x256
  inb_S4x256_S1x256_1_0 : ∀ a, (![1, 0] : Fin 2 → Nat) a + S1x256.size a ≤ S4x256.size a
  inb_S4x256_S1x256_2_0 : ∀ a, (![2, 0] : Fin 2 → Nat) a + S1x256.size a ≤ S4x256.size a
  inb_S4x256_S1x256_3_0 : ∀ a, (![3, 0] : Fin 2 → Nat) a + S1x256.size a ≤ S4x256.size a
  shapeCasts_S4096x2048_S1x4096x2048 : S4096x2048.ShapeCasts S1x4096x2048
  dot_S256x2048_S2048x256_S256x256_1_0_0_1_n_n_wf : DotDims.WF S256x2048 S2048x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .bf16 = 32 ∨ (Rect.block (s := S4096x2048) S256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S4096x2048.size a
  hwx0_1 : ∀ i : grid0.Coords, EltTy.bits .bf16 = 32 ∨ (Rect.block (s := S4096x2048) S256x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S4096x2048.size a
  hwx0_2 : ∀ i : grid0.Coords, EltTy.bits .f32 = 32 ∨ (Rect.block (s := S4096x2048) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S2048x2048.size a
  hwx0_3 : ∀ i : grid0.Coords, EltTy.bits .f32 = 32 ∨ (Rect.block (s := S2048x2048) S2048x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S2048x2048.size a
  hwx0_4 : ∀ i : grid0.Coords, EltTy.bits .f32 = 32 ∨ (Rect.block (s := S2048x2048) S2048x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S2048x2048.size a
  hwx0_5 : ∀ i : grid0.Coords, EltTy.bits .f32 = 32 ∨ (Rect.block (s := S2048x2048) S2048x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x256.size a ≤ S2048x2048.size a
  hwx0_6 : ∀ i : grid0.Coords, EltTy.bits .f32 = 32 ∨ (Rect.block (s := S2048x2048) S2048x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S2048x2048.size a
  hwx0_7 : ∀ i : grid0.Coords, EltTy.bits .f32 = 32 ∨ (Rect.block (s := S2048x2048) S2048x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x256.size a ≤ S2048x2048.size a
  hwx0_8 : ∀ i : grid0.Coords, EltTy.bits .f32 = 32 ∨ (Rect.block (s := S2048x2048) S2048x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x256.size a ≤ S2048x2048.size a
  hwx0_9 : ∀ i : grid0.Coords, EltTy.bits .f32 = 32 ∨ (Rect.block (s := S2048x2048) S2048x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x256.size a ≤ S2048x2048.size a
  hwx0_10 : ∀ i : grid0.Coords, EltTy.bits .f32 = 32 ∨ (Rect.block (s := S2048x2048) S2048x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4x256.size a ≤ S4x2048.size a
  hwx0_11 : ∀ i : grid0.Coords, EltTy.bits .f32 = 32 ∨ (Rect.block (s := S4x2048) S4x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x256.size a ≤ S4096x2048.size a
  hwx0_12 : ∀ i : grid0.Coords, EltTy.bits .f32 = 32 ∨ (Rect.block (s := S4096x2048) S256x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S256x256.size a ≤ S4096x2048.size a
  hwx0_13 : ∀ i : grid0.Coords, EltTy.bits .f32 = 32 ∨ (Rect.block (s := S4096x2048) S256x256.size (cc0_transform_13 i) (hinb0_13 i)).WholeWords (EltTy.packing .f32)

variable [Facts₀]

def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf

abbrev win0_0 : Pipeline.Window sig grid0 :=
  Pipeline.Window.ofSpec (Memref.whole main_v1) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2048x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2048x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2048x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S2048x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S2048x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S2048x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S2048x256.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v9) S4x256.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v10_0) S256x256.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v10_1) S256x256.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S1x4096x2048 : Shape := ⟨3, ![1, 4096, 2048]⟩
abbrev S2048x2048 : Shape := ⟨2, ![2048, 2048]⟩
abbrev S2048 : Shape := ⟨1, ![2048]⟩
abbrev S4096x2048 : Shape := ⟨2, ![4096, 2048]⟩
abbrev S2048x8192 : Shape := ⟨2, ![2048, 8192]⟩
abbrev S8192 : Shape := ⟨1, ![8192]⟩
abbrev S4096x8192 : Shape := ⟨2, ![4096, 8192]⟩
abbrev S1x8192 : Shape := ⟨2, ![1, 8192]⟩
abbrev S_ : Shape := ⟨0, ![]⟩

abbrev nBuf : Space → Nat
  | .hbm => 63
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S1x4096x2048, .f32⟩
  | .hbm, ⟨2, _⟩ => ⟨S1x4096x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S2048x8192, .f32⟩
  | .hbm, ⟨19, _⟩ => ⟨S2048x8192, .f32⟩
  | .hbm, ⟨20, _⟩ => ⟨S8192, .f32⟩
  | .hbm, ⟨21, _⟩ => ⟨S4096x8192, .f32⟩
  | .hbm, ⟨22, _⟩ => ⟨S4096x8192, .f32⟩
  | .hbm, ⟨23, _⟩ => ⟨S4096x8192, .f32⟩
  | .hbm, ⟨24, _⟩ => ⟨S1x8192, .f32⟩
  | .hbm, ⟨25, _⟩ => ⟨S4096x8192, .f32⟩
  | .hbm, ⟨26, _⟩ => ⟨S4096x8192, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S_, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S4096x2048, .f32⟩
  | .hbm, ⟨61, _⟩ => ⟨S1x4096x2048, .f32⟩
  | .hbm, ⟨62, _⟩ => ⟨S1x4096x2048, .f32⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst : Ref sig .tc := ⟨.hbm, 33, rfl⟩
abbrev main_v18 : Ref sig .tc := ⟨.hbm, 34, rfl⟩
abbrev main_v19 : Ref sig .tc := ⟨.hbm, 35, rfl⟩
abbrev main_cst_0 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_1 : Ref sig .tc := ⟨.hbm, 41, rfl⟩
abbrev main_v24 : Ref sig .tc := ⟨.hbm, 42, rfl⟩
abbrev main_v25 : Ref sig .tc := ⟨.hbm, 43, rfl⟩
abbrev main_cst_2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩

abbrev nD : Nat := 1
abbrev τ : Topo := Topo.v7x

variable {F : FTy → Type} [FloatOps F]

class Facts₀ : Prop where
  shapeCasts_S1x4096x2048_S4096x2048 : S1x4096x2048.ShapeCasts S4096x2048
  concatenates_S2048x2048_S2048x2048_S2048x2048_S2048x2048_S2048x8192_d1 : Shape.Concatenates [S2048x2048, S2048x2048, S2048x2048, S2048x2048] S2048x8192 1
  concatenates_S2048_S2048_S2048_S2048_S8192_d0 : Shape.Concatenates [S2048, S2048, S2048, S2048] S8192 0
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  bcast_S4096x2048_S1x4096x2048_1_2 : S4096x2048.BroadcastsInDim S1x4096x2048 (![1, 2] : Fin 2 → Fin S1x4096x2048.rank)
  dot_S4096x2048_S2048x8192_S4096x8192_1_0_0_1_n_n_wf : DotDims.WF S4096x2048 S2048x8192 S4096x8192 [1] [0] [0] [1] [] []

variable [Facts₀]

def dot_S4096x2048_S2048x8192_S4096x8192_1_0_0_1_n_n : DotDims S4096x2048 S2048x8192 S4096x8192 where
  lhsContracting := [1]
  rhsContracting := [0]
  lhsNonContracting := [0]
  rhsNonContracting := [1]
  lhsBatch := []
  rhsBatch := []
  wf := dot_S4096x2048_S2048x8192_S4096x8192_1_0_0_1_n_n_wf

class Facts : Prop extends Facts₀ where

variable [Facts]
-- ==== Proof.FrameBits.lean ====
/-
  The frame of the LSTM step: the program runs to the end, faults nowhere, and leaves its fifteen argument arrays as
  they were.

  The program is ten host operations (three reshapes of x, h, c to 4096 × 2048, two roundings of x and h, four bias
  vectors laid as rows and stacked into a 4 × 2048 matrix), one pipelined region over an 8 × 16 grid, and two reshapes
  of the region's results. At grid point (hi, bi) the region's body reads rows [256·bi, 256·bi + 256) of x and h in full
  width, the 256 × 256 tile (bi, hi) of c, columns [256·hi, 256·hi + 256) of the eight weight matrices and of the
  stacked bias, and writes the tile (bi, hi) of the new hidden and cell states. The body keeps nothing between
  points, so what it leaves in an output tile is one function of the input blocks at the point: the canonical
  contents of its one store per output. The inputs are only read: their staging buffers hold their blocks at every
  point, fetched there or carried over from the point before. With that, the pipeline's launch theorem gives the run,
  and each argument array is found unchanged: a weight matrix because it is an input window's array, the others
  because neither the region nor a host operation writes them.
-/
import proofs.«110121_j33423435498395_2_alg».proof.Proof.Gen.Kernel.Launch
import proofs.«110121_j33423435498395_2_alg».proof.Proof.Gen.Kernel.Skeleton
import proofs.«110121_j33423435498395_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- The buffer contents on core c when the region is entered: the launch memory after the ten host operations. -/
abbrev V0 (c : Dev nD) : Valuation τ sig (Elt F) := StableHlo.after (List.flatten [hostOps0]) (fun b => m (c, b))
/-- The same, read at a reference of the core. -/
abbrev V (c : Dev nD) (b : Ref sig .tc) : Buf (Elt F) ((c : Thread nD τ).loc b) := V0 m c (Proc.devRef .tc b)

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host operations before the region, the region, and the two reshapes after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The two reshapes after the region touch only arrays of the region and buffers that bypass it, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write no array of the region: each writes its own result only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.reshape_writes, Finset.mem_singleton] <;> exact StableHlo.devRef_ne_of_ne (by decide)

/-- Closes "no operation of the named line writes this buffer": each operation writes its own result only, and that
    result is another buffer. -/
local macro "unwritten_by " ops:ident : tactic => `(tactic| (
  simp only [$ops:ident, List.flatten_cons, List.flatten_nil, List.append_nil, List.cons_append, List.nil_append, List.Forall,
    StableHlo.unary_writes, StableHlo.reshape_writes, StableHlo.nary_writes, Finset.mem_singleton]
  repeat' apply And.intro
  all_goals exact StableHlo.devRef_ne_of_ne (by decide)))

/-- No host operation before the region writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by unwritten_by hostOps0))
theorem V_main_arg1 (c : Dev nD) : V m c main_arg1 = m ((c : Thread nD τ).loc main_arg1) :=
  StableHlo.after_of_forall_not_mem (b := Proc.devRef .tc main_arg1) _ _ (List.forall_iff_forall_mem.mp (by unwritten_by hostOps0))
theorem V_main_arg2 (c : Dev nD) : V m c main_arg2 = m ((c : Thread nD τ).loc main_arg2) :=
  StableHlo.after_of_forall_not_mem (b := Proc.devRef .tc main_arg2) _ _ (List.forall_iff_forall_mem.mp (by unwritten_by hostOps0))
theorem V_main_arg3 (c : Dev nD) : V m c main_arg3 = m ((c : Thread nD τ).loc main_arg3) :=
  StableHlo.after_of_forall_not_mem (b := Proc.devRef .tc main_arg3) _ _ (List.forall_iff_forall_mem.mp (by unwritten_by hostOps0))
theorem V_main_arg4 (c : Dev nD) : V m c main_arg4 = m ((c : Thread nD τ).loc main_arg4) :=
  StableHlo.after_of_forall_not_mem (b := Proc.devRef .tc main_arg4) _ _ (List.forall_iff_forall_mem.mp (by unwritten_by hostOps0))
theorem V_main_arg5 (c : Dev nD) : V m c main_arg5 = m ((c : Thread nD τ).loc main_arg5) :=
  StableHlo.after_of_forall_not_mem (b := Proc.devRef .tc main_arg5) _ _ (List.forall_iff_forall_mem.mp (by unwritten_by hostOps0))
theorem V_main_arg6 (c : Dev nD) : V m c main_arg6 = m ((c : Thread nD τ).loc main_arg6) :=
  StableHlo.after_of_forall_not_mem (b := Proc.devRef .tc main_arg6) _ _ (List.forall_iff_forall_mem.mp (by unwritten_by hostOps0))
theorem V_main_arg7 (c : Dev nD) : V m c main_arg7 = m ((c : Thread nD τ).loc main_arg7) :=
  StableHlo.after_of_forall_not_mem (b := Proc.devRef .tc main_arg7) _ _ (List.forall_iff_forall_mem.mp (by unwritten_by hostOps0))
theorem V_main_arg8 (c : Dev nD) : V m c main_arg8 = m ((c : Thread nD τ).loc main_arg8) :=
  StableHlo.after_of_forall_not_mem (b := Proc.devRef .tc main_arg8) _ _ (List.forall_iff_forall_mem.mp (by unwritten_by hostOps0))
theorem V_main_arg9 (c : Dev nD) : V m c main_arg9 = m ((c : Thread nD τ).loc main_arg9) :=
  StableHlo.after_of_forall_not_mem (b := Proc.devRef .tc main_arg9) _ _ (List.forall_iff_forall_mem.mp (by unwritten_by hostOps0))
theorem V_main_arg10 (c : Dev nD) : V m c main_arg10 = m ((c : Thread nD τ).loc main_arg10) :=
  StableHlo.after_of_forall_not_mem (b := Proc.devRef .tc main_arg10) _ _ (List.forall_iff_forall_mem.mp (by unwritten_by hostOps0))
theorem V_main_arg11 (c : Dev nD) : V m c main_arg11 = m ((c : Thread nD τ).loc main_arg11) :=
  StableHlo.after_of_forall_not_mem (b := Proc.devRef .tc main_arg11) _ _ (List.forall_iff_forall_mem.mp (by unwritten_by hostOps0))
theorem V_main_arg12 (c : Dev nD) : V m c main_arg12 = m ((c : Thread nD τ).loc main_arg12) :=
  StableHlo.after_of_forall_not_mem (b := Proc.devRef .tc main_arg12) _ _ (List.forall_iff_forall_mem.mp (by unwritten_by hostOps0))
theorem V_main_arg13 (c : Dev nD) : V m c main_arg13 = m ((c : Thread nD τ).loc main_arg13) :=
  StableHlo.after_of_forall_not_mem (b := Proc.devRef .tc main_arg13) _ _ (List.forall_iff_forall_mem.mp (by unwritten_by hostOps0))
theorem V_main_arg14 (c : Dev nD) : V m c main_arg14 = m ((c : Thread nD τ).loc main_arg14) :=
  StableHlo.after_of_forall_not_mem (b := Proc.devRef .tc main_arg14) _ _ (List.forall_iff_forall_mem.mp (by unwritten_by hostOps0))

/-- A buffer that is neither an array of the region nor a result of the two reshapes after it ends as the region
    found it. -/
theorem tail_kept (dats : (p : Fin _) → (c : Dev nD) → Dat τ (Elt F) Unit ℕ (UR sig nD τ) ℕ (cfgs p) c) (c : Dev nD)
    (b : Ref sig .tc) (h11 : b ≠ main_v11) (h12 : b ≠ main_v12) (harr : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append, List.nil_append, List.Forall,
        StableHlo.reshape_writes, Finset.mem_singleton]
      exact ⟨StableHlo.devRef_ne_of_ne h11, StableHlo.devRef_ne_of_ne h12⟩)),
    Pipeline.withArrays_of_ne _ c (V0 m c) _ b harr]

/-! ## The windows' blocks -/

/-- Window w's block at grid point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, whether the pipeline fetched it there or the
    block index did not move since the point before: for any proof data whose array is the region-entry contents
    and whose body leaves the block in place. One statement per input window (the windows are uncut and never idle). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The frame claim from the launch theorem's post -/

/-- For any proof data whose arrays are the region-entry contents: in a final state with every array of the region at
    the contents the data computes, and every bypassing buffer as the two reshapes leave it, the fifteen argument arrays
    are as launched: a weight matrix is an input window's array, which the pipeline only reads; the others bypass the
    region and are written by no host operation. -/
theorem args_kept (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
    ⟨((h c).2 main_arg0 (Pipeline.mem_restRefs_of main_arg0 (by decide) (by decide))).trans ((tail_kept m dats c main_arg0 (by decide) (by decide) (by decide)).trans (V_main_arg0 m c)),
     ((h c).2 main_arg1 (Pipeline.mem_restRefs_of main_arg1 (by decide) (by decide))).trans ((tail_kept m dats c main_arg1 (by decide) (by decide) (by decide)).trans (V_main_arg1 m c)),
     ((h c).2 main_arg2 (Pipeline.mem_restRefs_of main_arg2 (by decide) (by decide))).trans ((tail_kept m dats c main_arg2 (by decide) (by decide) (by decide)).trans (V_main_arg2 m c)),
     ((h c).1 3).trans (((dats 0 c).arrAt_in 3 rfl _).trans ((hA c 3).trans (V_main_arg3 m c))),
     ((h c).1 4).trans (((dats 0 c).arrAt_in 4 rfl _).trans ((hA c 4).trans (V_main_arg4 m c))),
     ((h c).1 5).trans (((dats 0 c).arrAt_in 5 rfl _).trans ((hA c 5).trans (V_main_arg5 m c))),
     ((h c).1 6).trans (((dats 0 c).arrAt_in 6 rfl _).trans ((hA c 6).trans (V_main_arg6 m c))),
     ((h c).1 7).trans (((dats 0 c).arrAt_in 7 rfl _).trans ((hA c 7).trans (V_main_arg7 m c))),
     ((h c).1 8).trans (((dats 0 c).arrAt_in 8 rfl _).trans ((hA c 8).trans (V_main_arg8 m c))),
     ((h c).1 9).trans (((dats 0 c).arrAt_in 9 rfl _).trans ((hA c 9).trans (V_main_arg9 m c))),
     ((h c).1 10).trans (((dats 0 c).arrAt_in 10 rfl _).trans ((hA c 10).trans (V_main_arg10 m c))),
     ((h c).2 main_arg11 (Pipeline.mem_restRefs_of main_arg11 (by decide) (by decide))).trans ((tail_kept m dats c main_arg11 (by decide) (by decide) (by decide)).trans (V_main_arg11 m c)),
     ((h c).2 main_arg12 (Pipeline.mem_restRefs_of main_arg12 (by decide) (by decide))).trans ((tail_kept m dats c main_arg12 (by decide) (by decide) (by decide)).trans (V_main_arg12 m c)),
     ((h c).2 main_arg13 (Pipeline.mem_restRefs_of main_arg13 (by decide) (by decide))).trans ((tail_kept m dats c main_arg13 (by decide) (by decide) (by decide)).trans (V_main_arg13 m c)),
     ((h c).2 main_arg14 (Pipeline.mem_restRefs_of main_arg14 (by decide) (by decide))).trans ((tail_kept m dats c main_arg14 (by decide) (by decide) (by decide)).trans (V_main_arg14 m c))⟩

/-- So a run to such final states is a run that keeps the argument arrays. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => args_kept m dats hA r h c) h

/-! ## The body's accesses and what it leaves -/

/-- The whole of a 256 × 2048 block (rows of x and of h), -/
abbrev rX : Rect S256x2048 := Rect.unit (s := S256x2048) ![0, 0] S256x2048.size inb_S256x2048_S256x2048_0_0
/-- of a 256 × 256 tile (c and the two outputs), -/
abbrev rC : Rect S256x256 := Rect.unit (s := S256x256) ![0, 0] S256x256.size inb_S256x256_S256x256_0_0
/-- of a 2048 × 256 block of columns of a weight matrix, -/
abbrev rW : Rect S2048x256 := Rect.unit (s := S2048x256) ![0, 0] S2048x256.size inb_S2048x256_S2048x256_0_0
/-- and the four rows of the 4 × 256 block of the stacked bias, one per gate. -/
abbrev rb0 : Rect S4x256 := Rect.unit (s := S4x256) ![0, 0] S1x256.size inb_S4x256_S1x256_0_0
abbrev rb1 : Rect S4x256 := Rect.unit (s := S4x256) ![1, 0] S1x256.size inb_S4x256_S1x256_1_0
abbrev rb2 : Rect S4x256 := Rect.unit (s := S4x256) ![2, 0] S1x256.size inb_S4x256_S1x256_2_0
abbrev rb3 : Rect S4x256 := Rect.unit (s := S4x256) ![3, 0] S1x256.size inb_S4x256_S1x256_3_0

/-- The new cell tile after the body, from the input blocks: its one store's payload laid over the tile. -/
def cOut (x0 x1 : Vec F S256x2048 .bf16) (x2 : Vec F S256x256 .f32) (x3 x4 x5 x6 x9 x10 : Vec F S2048x256 .f32) (x11 : Vec F S4x256 .f32) :
    Vec F S256x256 .f32 :=
  View.canon [⟨rC, k0_pay1 (k0_pay3 (View.ld x0 rX)) (k0_pay4 (View.ld x1 rX)) (k0_pay5 (View.ld x2 rC))
    (k0_pay6 (View.ld x0 rX) (View.ld x1 rX) (View.ld x3 rW) (View.ld x4 rW) (View.ld x11 rb0))
    (k0_pay7 (View.ld x0 rX) (View.ld x1 rX) (View.ld x5 rW) (View.ld x6 rW) (View.ld x11 rb1))
    (View.ld x9 rW) (View.ld x10 rW) (View.ld x11 rb3)⟩]

/-- The new hidden tile after the body. -/
def hOut (x0 x1 : Vec F S256x2048 .bf16) (x2 : Vec F S256x256 .f32) (x3 x4 x5 x6 x7 x8 x9 x10 : Vec F S2048x256 .f32) (x11 : Vec F S4x256 .f32) :
    Vec F S256x256 .f32 :=
  View.canon [⟨rC, k0_pay2 (k0_pay3 (View.ld x0 rX)) (k0_pay4 (View.ld x1 rX)) (k0_pay5 (View.ld x2 rC))
    (k0_pay6 (View.ld x0 rX) (View.ld x1 rX) (View.ld x3 rW) (View.ld x4 rW) (View.ld x11 rb0))
    (k0_pay7 (View.ld x0 rX) (View.ld x1 rX) (View.ld x5 rW) (View.ld x6 rW) (View.ld x11 rb1))
    (k0_pay8 (View.ld x7 rW)) (View.ld x8 rW) (View.ld x11 rb2) (View.ld x9 rW) (View.ld x10 rW) (View.ld x11 rb3)⟩]

/-- One store through the whole tile covers the tile. -/
theorem cover_tile (p0 : Vec F S256x256 .f32) (y : S256x256.Idx) :
    ∃ pc ∈ ([⟨rC, p0⟩] : List (View.Piece (Elt F) S256x256 .f32)), y ∈ pc.1.set :=
  View.cover_of_tiled [⟨rC, p0⟩] S256x256.size (by rfl) y

/-! ## The body's triple -/

set_option maxHeartbeats 4000000 in
/-- The body, run on whole staging buffers holding the twelve input blocks (the two output buffers holding anything),
    ends with the input buffers as they were and the output buffers at hOut and cOut of the input blocks. -/
theorem sound_kernel (c : Dev nD) (E : Set ℕ) (i : grid0.Coords)
    (arg2 : Memref sig .tc .vmem S256x2048 .bf16) (harg2 : arg2.IsWhole) (arg3 : Memref sig .tc .vmem S256x2048 .bf16) (harg3 : arg3.IsWhole)
    (arg4 : Memref sig .tc .vmem S256x256 .f32) (harg4 : arg4.IsWhole)
    (arg5 : Memref sig .tc .vmem S2048x256 .f32) (harg5 : arg5.IsWhole) (arg6 : Memref sig .tc .vmem S2048x256 .f32) (harg6 : arg6.IsWhole)
    (arg7 : Memref sig .tc .vmem S2048x256 .f32) (harg7 : arg7.IsWhole) (arg8 : Memref sig .tc .vmem S2048x256 .f32) (harg8 : arg8.IsWhole)
    (arg9 : Memref sig .tc .vmem S2048x256 .f32) (harg9 : arg9.IsWhole) (arg10 : Memref sig .tc .vmem S2048x256 .f32) (harg10 : arg10.IsWhole)
    (arg11 : Memref sig .tc .vmem S2048x256 .f32) (harg11 : arg11.IsWhole) (arg12 : Memref sig .tc .vmem S2048x256 .f32) (harg12 : arg12.IsWhole)
    (arg13 : Memref sig .tc .vmem S4x256 .f32) (harg13 : arg13.IsWhole)
    (arg14 : Memref sig .tc .vmem S256x256 .f32) (harg14 : arg14.IsWhole) (arg15 : Memref sig .tc .vmem S256x256 .f32) (harg15 : arg15.IsWhole)
    (x0 x1 : Vec F S256x2048 .bf16) (x2 : Vec F S256x256 .f32) (x3 x4 x5 x6 x7 x8 x9 x10 : Vec F S2048x256 .f32) (x11 : Vec F S4x256 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ owns (c : Thread nD τ) arg10 fullShare x8
        ∗ owns (c : Thread nD τ) arg11 fullShare x9 ∗ owns (c : Thread nD τ) arg12 fullShare x10 ∗ owns (c : Thread nD τ) arg13 fullShare x11
        ∗ (∃ d, owns (c : Thread nD τ) arg14 fullShare d) ∗ (∃ d, owns (c : Thread nD τ) arg15 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7 ∗ owns (c : Thread nD τ) arg10 fullShare x8
            ∗ owns (c : Thread nD τ) arg11 fullShare x9 ∗ owns (c : Thread nD τ) arg12 fullShare x10 ∗ owns (c : Thread nD τ) arg13 fullShare x11
            ∗ owns (c : Thread nD τ) arg14 fullShare (hOut x0 x1 x2 x3 x4 x5 x6 x7 x8 x9 x10 x11)
            ∗ owns (c : Thread nD τ) arg15 fullShare (cOut x0 x1 x2 x3 x4 x5 x6 x9 x10 x11)) -∗ K ⟨⟩))
      ⊢ wp frame (wpE (defs₀ (F := F)) Variants.none c none) E
          (cc0_lstm_kernel i arg2 harg2 arg3 harg3 arg4 harg4 arg5 harg5 arg6 harg6 arg7 harg7 arg8 harg8 arg9 harg9 arg10 harg10
            arg11 harg11 arg12 harg12 arg13 harg13 arg14 harg14 arg15 harg15) K := by
  simp only [cc0_lstm_kernel_eq_skeleton]; unfold cc0_lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%f11, %hf11, H11⟩,
    ⟨%d12, %f12, -, H12⟩, ⟨%d13, %f13, -, H13⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    try dsimp only
    exact View.read_writes_eq_canon _ _ _ (cover_tile _)
  iexists _; isplitr
  swap; · iexact H13
  ipureintro
  try dsimp only
  exact View.read_writes_eq_canon _ _ _ (cover_tile _)

/-! ## The pipeline's proof data -/

/-- On core c: the arrays as the region finds them; after the body at point t each input's buffer at its block and
    the two outputs' at hOut and cOut of the input blocks; nothing else held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => hOut (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t)
    | ⟨13, _⟩ => cOut (iblk m c 0 t) (iblk m c 1 t) (iblk m c 2 t) (iblk m c 3 t) (iblk m c 4 t) (iblk m c 5 t) (iblk m c 6 t)
        (iblk m c 9 t) (iblk m c 10 t) (iblk m c 11 t)
  Φ _ := Pipeline.ΦA spec0 c
  q _ := fullShare
  owed _ := 0

/-- The data's arrays are the region-entry contents (the definition projected, the host prefix never unfolded). -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t
    = hOut (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) := by dsimp only [dats]
theorem after13 (c : Dev nD) (t : Fin cfg0.N) : (dats m 0 c).after 13 t
    = cOut (iblk m c 0 t) (iblk m c 1 t) (iblk m c 2 t) (iblk m c 3 t) (iblk m c 4 t) (iblk m c 5 t) (iblk m c 6 t)
        (iblk m c 9 t) (iblk m c 10 t) (iblk m c 11 t) := by dsimp only [dats]

/-- Each input's staging buffer holds its block at every point. -/
theorem before0 (c : Dev nD) (t : Fin cfg0.N) (d) : (dats m 0 c).before 0 t d = iblk m c 0 t := before0_of m (dats m 0 c) (A_eq m c 0) (after0 m c) t d
theorem before1 (c : Dev nD) (t : Fin cfg0.N) (d) : (dats m 0 c).before 1 t d = iblk m c 1 t := before1_of m (dats m 0 c) (A_eq m c 1) (after1 m c) t d
theorem before2 (c : Dev nD) (t : Fin cfg0.N) (d) : (dats m 0 c).before 2 t d = iblk m c 2 t := before2_of m (dats m 0 c) (A_eq m c 2) (after2 m c) t d
theorem before3 (c : Dev nD) (t : Fin cfg0.N) (d) : (dats m 0 c).before 3 t d = iblk m c 3 t := before3_of m (dats m 0 c) (A_eq m c 3) (after3 m c) t d
theorem before4 (c : Dev nD) (t : Fin cfg0.N) (d) : (dats m 0 c).before 4 t d = iblk m c 4 t := before4_of m (dats m 0 c) (A_eq m c 4) (after4 m c) t d
theorem before5 (c : Dev nD) (t : Fin cfg0.N) (d) : (dats m 0 c).before 5 t d = iblk m c 5 t := before5_of m (dats m 0 c) (A_eq m c 5) (after5 m c) t d
theorem before6 (c : Dev nD) (t : Fin cfg0.N) (d) : (dats m 0 c).before 6 t d = iblk m c 6 t := before6_of m (dats m 0 c) (A_eq m c 6) (after6 m c) t d
theorem before7 (c : Dev nD) (t : Fin cfg0.N) (d) : (dats m 0 c).before 7 t d = iblk m c 7 t := before7_of m (dats m 0 c) (A_eq m c 7) (after7 m c) t d
theorem before8 (c : Dev nD) (t : Fin cfg0.N) (d) : (dats m 0 c).before 8 t d = iblk m c 8 t := before8_of m (dats m 0 c) (A_eq m c 8) (after8 m c) t d
theorem before9 (c : Dev nD) (t : Fin cfg0.N) (d) : (dats m 0 c).before 9 t d = iblk m c 9 t := before9_of m (dats m 0 c) (A_eq m c 9) (after9 m c) t d
theorem before10 (c : Dev nD) (t : Fin cfg0.N) (d) : (dats m 0 c).before 10 t d = iblk m c 10 t := before10_of m (dats m 0 c) (A_eq m c 10) (after10 m c) t d
theorem before11 (c : Dev nD) (t : Fin cfg0.N) (d) : (dats m 0 c).before 11 t d = iblk m c 11 t := before11_of m (dats m 0 c) (A_eq m c 11) (after11 m c) t d

/-! ## The body obligation at a generic point -/

/-- What the body is called with at point t: the invariant, the core's dues, and every window's current staging buffer, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

/-- The body at any point: the inputs' buffers hold their blocks, so the triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of the program terminates without a fault, with
    every array of the region at what the proof data computes (an input as found, an output overwritten tile by tile
    by what the body left) and every other buffer as the two reshapes after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs, and its fifteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.Hand

end
-- ==== Proof.FrameIdeal.lean ====
/-
  The frame of the LSTM step: the program runs to the end, faults nowhere, and leaves its fifteen argument arrays as
  they were.

  The program is ten host operations (three reshapes of x, h, c to 4096 × 2048, two roundings of x and h, four bias
  vectors laid as rows and stacked into a 4 × 2048 matrix), one pipelined region over an 8 × 16 grid, and two reshapes
  of the region's results. At grid point (hi, bi) the region's body reads rows [256·bi, 256·bi + 256) of x and h in full
  width, the 256 × 256 tile (bi, hi) of c, columns [256·hi, 256·hi + 256) of the eight weight matrices and of the
  stacked bias, and writes the tile (bi, hi) of the new hidden and cell states. The body keeps nothing between
  points, so what it leaves in an output tile is one function of the input blocks at the point: the canonical
  contents of its one store per output. The inputs are only read: their staging buffers hold their blocks at every
  point, fetched there or carried over from the point before. With that, the pipeline's launch theorem gives the run,
  and each argument array is found unchanged: a weight matrix because it is an input window's array, the others
  because neither the region nor a host operation writes them.
-/
import proofs.«110121_j33423435498395_2_alg».proof.Proof.Gen.KernelIdeal.Launch
import proofs.«110121_j33423435498395_2_alg».proof.Proof.Gen.KernelIdeal.Skeleton
import proofs.«110121_j33423435498395_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- The buffer contents on core c when the region is entered: the launch memory after the ten host operations. -/
abbrev V0 (c : Dev nD) : Valuation τ sig (Elt F) := StableHlo.after (List.flatten [hostOps0]) (fun b => m (c, b))
/-- The same, read at a reference of the core. -/
abbrev V (c : Dev nD) (b : Ref sig .tc) : Buf (Elt F) ((c : Thread nD τ).loc b) := V0 m c (Proc.devRef .tc b)

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host operations before the region, the region, and the two reshapes after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The two reshapes after the region touch only arrays of the region and buffers that bypass it, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write no array of the region: each writes its own result only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.reshape_writes, Finset.mem_singleton] <;> exact StableHlo.devRef_ne_of_ne (by decide)

/-- Closes "no operation of the named line writes this buffer": each operation writes its own result only, and that
    result is another buffer. -/
local macro "unwritten_by " ops:ident : tactic => `(tactic| (
  simp only [$ops:ident, List.flatten_cons, List.flatten_nil, List.append_nil, List.cons_append, List.nil_append, List.Forall,
    StableHlo.unary_writes, StableHlo.reshape_writes, StableHlo.nary_writes, Finset.mem_singleton]
  repeat' apply And.intro
  all_goals exact StableHlo.devRef_ne_of_ne (by decide)))

/-- No host operation before the region writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by unwritten_by hostOps0))
theorem V_main_arg1 (c : Dev nD) : V m c main_arg1 = m ((c : Thread nD τ).loc main_arg1) :=
  StableHlo.after_of_forall_not_mem (b := Proc.devRef .tc main_arg1) _ _ (List.forall_iff_forall_mem.mp (by unwritten_by hostOps0))
theorem V_main_arg2 (c : Dev nD) : V m c main_arg2 = m ((c : Thread nD τ).loc main_arg2) :=
  StableHlo.after_of_forall_not_mem (b := Proc.devRef .tc main_arg2) _ _ (List.forall_iff_forall_mem.mp (by unwritten_by hostOps0))
theorem V_main_arg3 (c : Dev nD) : V m c main_arg3 = m ((c : Thread nD τ).loc main_arg3) :=
  StableHlo.after_of_forall_not_mem (b := Proc.devRef .tc main_arg3) _ _ (List.forall_iff_forall_mem.mp (by unwritten_by hostOps0))
theorem V_main_arg4 (c : Dev nD) : V m c main_arg4 = m ((c : Thread nD τ).loc main_arg4) :=
  StableHlo.after_of_forall_not_mem (b := Proc.devRef .tc main_arg4) _ _ (List.forall_iff_forall_mem.mp (by unwritten_by hostOps0))
theorem V_main_arg5 (c : Dev nD) : V m c main_arg5 = m ((c : Thread nD τ).loc main_arg5) :=
  StableHlo.after_of_forall_not_mem (b := Proc.devRef .tc main_arg5) _ _ (List.forall_iff_forall_mem.mp (by unwritten_by hostOps0))
theorem V_main_arg6 (c : Dev nD) : V m c main_arg6 = m ((c : Thread nD τ).loc main_arg6) :=
  StableHlo.after_of_forall_not_mem (b := Proc.devRef .tc main_arg6) _ _ (List.forall_iff_forall_mem.mp (by unwritten_by hostOps0))
theorem V_main_arg7 (c : Dev nD) : V m c main_arg7 = m ((c : Thread nD τ).loc main_arg7) :=
  StableHlo.after_of_forall_not_mem (b := Proc.devRef .tc main_arg7) _ _ (List.forall_iff_forall_mem.mp (by unwritten_by hostOps0))
theorem V_main_arg8 (c : Dev nD) : V m c main_arg8 = m ((c : Thread nD τ).loc main_arg8) :=
  StableHlo.after_of_forall_not_mem (b := Proc.devRef .tc main_arg8) _ _ (List.forall_iff_forall_mem.mp (by unwritten_by hostOps0))
theorem V_main_arg9 (c : Dev nD) : V m c main_arg9 = m ((c : Thread nD τ).loc main_arg9) :=
  StableHlo.after_of_forall_not_mem (b := Proc.devRef .tc main_arg9) _ _ (List.forall_iff_forall_mem.mp (by unwritten_by hostOps0))
theorem V_main_arg10 (c : Dev nD) : V m c main_arg10 = m ((c : Thread nD τ).loc main_arg10) :=
  StableHlo.after_of_forall_not_mem (b := Proc.devRef .tc main_arg10) _ _ (List.forall_iff_forall_mem.mp (by unwritten_by hostOps0))
theorem V_main_arg11 (c : Dev nD) : V m c main_arg11 = m ((c : Thread nD τ).loc main_arg11) :=
  StableHlo.after_of_forall_not_mem (b := Proc.devRef .tc main_arg11) _ _ (List.forall_iff_forall_mem.mp (by unwritten_by hostOps0))
theorem V_main_arg12 (c : Dev nD) : V m c main_arg12 = m ((c : Thread nD τ).loc main_arg12) :=
  StableHlo.after_of_forall_not_mem (b := Proc.devRef .tc main_arg12) _ _ (List.forall_iff_forall_mem.mp (by unwritten_by hostOps0))
theorem V_main_arg13 (c : Dev nD) : V m c main_arg13 = m ((c : Thread nD τ).loc main_arg13) :=
  StableHlo.after_of_forall_not_mem (b := Proc.devRef .tc main_arg13) _ _ (List.forall_iff_forall_mem.mp (by unwritten_by hostOps0))
theorem V_main_arg14 (c : Dev nD) : V m c main_arg14 = m ((c : Thread nD τ).loc main_arg14) :=
  StableHlo.after_of_forall_not_mem (b := Proc.devRef .tc main_arg14) _ _ (List.forall_iff_forall_mem.mp (by unwritten_by hostOps0))

/-- A buffer that is neither an array of the region nor a result of the two reshapes after it ends as the region
    found it. -/
theorem tail_kept (dats : (p : Fin _) → (c : Dev nD) → Dat τ (Elt F) Unit ℕ (UR sig nD τ) ℕ (cfgs p) c) (c : Dev nD)
    (b : Ref sig .tc) (h11 : b ≠ main_v11) (h12 : b ≠ main_v12) (harr : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append, List.nil_append, List.Forall,
        StableHlo.reshape_writes, Finset.mem_singleton]
      exact ⟨StableHlo.devRef_ne_of_ne h11, StableHlo.devRef_ne_of_ne h12⟩)),
    Pipeline.withArrays_of_ne _ c (V0 m c) _ b harr]

/-! ## The windows' blocks -/

/-- Window w's block at grid point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, whether the pipeline fetched it there or the
    block index did not move since the point before: for any proof data whose array is the region-entry contents
    and whose body leaves the block in place. One statement per input window (the windows are uncut and never idle). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The frame claim from the launch theorem's post -/

/-- For any proof data whose arrays are the region-entry contents: in a final state with every array of the region at
    the contents the data computes, and every bypassing buffer as the two reshapes leave it, the fifteen argument arrays
    are as launched: a weight matrix is an input window's array, which the pipeline only reads; the others bypass the
    region and are written by no host operation. -/
theorem args_kept (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
    ⟨((h c).2 main_arg0 (Pipeline.mem_restRefs_of main_arg0 (by decide) (by decide))).trans ((tail_kept m dats c main_arg0 (by decide) (by decide) (by decide)).trans (V_main_arg0 m c)),
     ((h c).2 main_arg1 (Pipeline.mem_restRefs_of main_arg1 (by decide) (by decide))).trans ((tail_kept m dats c main_arg1 (by decide) (by decide) (by decide)).trans (V_main_arg1 m c)),
     ((h c).2 main_arg2 (Pipeline.mem_restRefs_of main_arg2 (by decide) (by decide))).trans ((tail_kept m dats c main_arg2 (by decide) (by decide) (by decide)).trans (V_main_arg2 m c)),
     ((h c).1 3).trans (((dats 0 c).arrAt_in 3 rfl _).trans ((hA c 3).trans (V_main_arg3 m c))),
     ((h c).1 4).trans (((dats 0 c).arrAt_in 4 rfl _).trans ((hA c 4).trans (V_main_arg4 m c))),
     ((h c).1 5).trans (((dats 0 c).arrAt_in 5 rfl _).trans ((hA c 5).trans (V_main_arg5 m c))),
     ((h c).1 6).trans (((dats 0 c).arrAt_in 6 rfl _).trans ((hA c 6).trans (V_main_arg6 m c))),
     ((h c).1 7).trans (((dats 0 c).arrAt_in 7 rfl _).trans ((hA c 7).trans (V_main_arg7 m c))),
     ((h c).1 8).trans (((dats 0 c).arrAt_in 8 rfl _).trans ((hA c 8).trans (V_main_arg8 m c))),
     ((h c).1 9).trans (((dats 0 c).arrAt_in 9 rfl _).trans ((hA c 9).trans (V_main_arg9 m c))),
     ((h c).1 10).trans (((dats 0 c).arrAt_in 10 rfl _).trans ((hA c 10).trans (V_main_arg10 m c))),
     ((h c).2 main_arg11 (Pipeline.mem_restRefs_of main_arg11 (by decide) (by decide))).trans ((tail_kept m dats c main_arg11 (by decide) (by decide) (by decide)).trans (V_main_arg11 m c)),
     ((h c).2 main_arg12 (Pipeline.mem_restRefs_of main_arg12 (by decide) (by decide))).trans ((tail_kept m dats c main_arg12 (by decide) (by decide) (by decide)).trans (V_main_arg12 m c)),
     ((h c).2 main_arg13 (Pipeline.mem_restRefs_of main_arg13 (by decide) (by decide))).trans ((tail_kept m dats c main_arg13 (by decide) (by decide) (by decide)).trans (V_main_arg13 m c)),
     ((h c).2 main_arg14 (Pipeline.mem_restRefs_of main_arg14 (by decide) (by decide))).trans ((tail_kept m dats c main_arg14 (by decide) (by decide) (by decide)).trans (V_main_arg14 m c))⟩

/-- So a run to such final states is a run that keeps the argument arrays. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => args_kept m dats hA r h c) h

/-! ## The body's accesses and what it leaves -/

/-- The whole of a 256 × 2048 block (rows of x and of h), -/
abbrev rX : Rect S256x2048 := Rect.unit (s := S256x2048) ![0, 0] S256x2048.size inb_S256x2048_S256x2048_0_0
/-- of a 256 × 256 tile (c and the two outputs), -/
abbrev rC : Rect S256x256 := Rect.unit (s := S256x256) ![0, 0] S256x256.size inb_S256x256_S256x256_0_0
/-- of a 2048 × 256 block of columns of a weight matrix, -/
abbrev rW : Rect S2048x256 := Rect.unit (s := S2048x256) ![0, 0] S2048x256.size inb_S2048x256_S2048x256_0_0
/-- and the four rows of the 4 × 256 block of the stacked bias, one per gate. -/
abbrev rb0 : Rect S4x256 := Rect.unit (s := S4x256) ![0, 0] S1x256.size inb_S4x256_S1x256_0_0
abbrev rb1 : Rect S4x256 := Rect.unit (s := S4x256) ![1, 0] S1x256.size inb_S4x256_S1x256_1_0
abbrev rb2 : Rect S4x256 := Rect.unit (s := S4x256) ![2, 0] S1x256.size inb_S4x256_S1x256_2_0
abbrev rb3 : Rect S4x256 := Rect.unit (s := S4x256) ![3, 0] S1x256.size inb_S4x256_S1x256_3_0

/-- The new cell tile after the body, from the input blocks: its one store's payload laid over the tile. -/
def cOut (x0 x1 : Vec F S256x2048 .bf16) (x2 : Vec F S256x256 .f32) (x3 x4 x5 x6 x9 x10 : Vec F S2048x256 .f32) (x11 : Vec F S4x256 .f32) :
    Vec F S256x256 .f32 :=
  View.canon [⟨rC, k0_pay1 (k0_pay3 (View.ld x0 rX)) (k0_pay4 (View.ld x1 rX)) (k0_pay5 (View.ld x2 rC))
    (k0_pay6 (View.ld x0 rX) (View.ld x1 rX) (View.ld x3 rW) (View.ld x4 rW) (View.ld x11 rb0))
    (k0_pay7 (View.ld x0 rX) (View.ld x1 rX) (View.ld x5 rW) (View.ld x6 rW) (View.ld x11 rb1))
    (View.ld x9 rW) (View.ld x10 rW) (View.ld x11 rb3)⟩]

/-- The new hidden tile after the body. -/
def hOut (x0 x1 : Vec F S256x2048 .bf16) (x2 : Vec F S256x256 .f32) (x3 x4 x5 x6 x7 x8 x9 x10 : Vec F S2048x256 .f32) (x11 : Vec F S4x256 .f32) :
    Vec F S256x256 .f32 :=
  View.canon [⟨rC, k0_pay2 (k0_pay3 (View.ld x0 rX)) (k0_pay4 (View.ld x1 rX)) (k0_pay5 (View.ld x2 rC))
    (k0_pay6 (View.ld x0 rX) (View.ld x1 rX) (View.ld x3 rW) (View.ld x4 rW) (View.ld x11 rb0))
    (k0_pay7 (View.ld x0 rX) (View.ld x1 rX) (View.ld x5 rW) (View.ld x6 rW) (View.ld x11 rb1))
    (k0_pay8 (View.ld x7 rW)) (View.ld x8 rW) (View.ld x11 rb2) (View.ld x9 rW) (View.ld x10 rW) (View.ld x11 rb3)⟩]

/-- One store through the whole tile covers the tile. -/
theorem cover_tile (p0 : Vec F S256x256 .f32) (y : S256x256.Idx) :
    ∃ pc ∈ ([⟨rC, p0⟩] : List (View.Piece (Elt F) S256x256 .f32)), y ∈ pc.1.set :=
  View.cover_of_tiled [⟨rC, p0⟩] S256x256.size (by rfl) y

/-! ## The body's triple -/

set_option maxHeartbeats 4000000 in
/-- The body, run on whole staging buffers holding the twelve input blocks (the two output buffers holding anything),
    ends with the input buffers as they were and the output buffers at hOut and cOut of the input blocks. -/
theorem sound_kernel (c : Dev nD) (E : Set ℕ) (i : grid0.Coords)
    (arg2 : Memref sig .tc .vmem S256x2048 .bf16) (harg2 : arg2.IsWhole) (arg3 : Memref sig .tc .vmem S256x2048 .bf16) (harg3 : arg3.IsWhole)
    (arg4 : Memref sig .tc .vmem S256x256 .f32) (harg4 : arg4.IsWhole)
    (arg5 : Memref sig .tc .vmem S2048x256 .f32) (harg5 : arg5.IsWhole) (arg6 : Memref sig .tc .vmem S2048x256 .f32) (harg6 : arg6.IsWhole)
    (arg7 : Memref sig .tc .vmem S2048x256 .f32) (harg7 : arg7.IsWhole) (arg8 : Memref sig .tc .vmem S2048x256 .f32) (harg8 : arg8.IsWhole)
    (arg9 : Memref sig .tc .vmem S2048x256 .f32) (harg9 : arg9.IsWhole) (arg10 : Memref sig .tc .vmem S2048x256 .f32) (harg10 : arg10.IsWhole)
    (arg11 : Memref sig .tc .vmem S2048x256 .f32) (harg11 : arg11.IsWhole) (arg12 : Memref sig .tc .vmem S2048x256 .f32) (harg12 : arg12.IsWhole)
    (arg13 : Memref sig .tc .vmem S4x256 .f32) (harg13 : arg13.IsWhole)
    (arg14 : Memref sig .tc .vmem S256x256 .f32) (harg14 : arg14.IsWhole) (arg15 : Memref sig .tc .vmem S256x256 .f32) (harg15 : arg15.IsWhole)
    (x0 x1 : Vec F S256x2048 .bf16) (x2 : Vec F S256x256 .f32) (x3 x4 x5 x6 x7 x8 x9 x10 : Vec F S2048x256 .f32) (x11 : Vec F S4x256 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ owns (c : Thread nD τ) arg10 fullShare x8
        ∗ owns (c : Thread nD τ) arg11 fullShare x9 ∗ owns (c : Thread nD τ) arg12 fullShare x10 ∗ owns (c : Thread nD τ) arg13 fullShare x11
        ∗ (∃ d, owns (c : Thread nD τ) arg14 fullShare d) ∗ (∃ d, owns (c : Thread nD τ) arg15 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7 ∗ owns (c : Thread nD τ) arg10 fullShare x8
            ∗ owns (c : Thread nD τ) arg11 fullShare x9 ∗ owns (c : Thread nD τ) arg12 fullShare x10 ∗ owns (c : Thread nD τ) arg13 fullShare x11
            ∗ owns (c : Thread nD τ) arg14 fullShare (hOut x0 x1 x2 x3 x4 x5 x6 x7 x8 x9 x10 x11)
            ∗ owns (c : Thread nD τ) arg15 fullShare (cOut x0 x1 x2 x3 x4 x5 x6 x9 x10 x11)) -∗ K ⟨⟩))
      ⊢ wp frame (wpE (defs₀ (F := F)) Variants.none c none) E
          (cc0_lstm_kernel i arg2 harg2 arg3 harg3 arg4 harg4 arg5 harg5 arg6 harg6 arg7 harg7 arg8 harg8 arg9 harg9 arg10 harg10
            arg11 harg11 arg12 harg12 arg13 harg13 arg14 harg14 arg15 harg15) K := by
  simp only [cc0_lstm_kernel_eq_skeleton]; unfold cc0_lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%f11, %hf11, H11⟩,
    ⟨%d12, %f12, -, H12⟩, ⟨%d13, %f13, -, H13⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    try dsimp only
    exact View.read_writes_eq_canon _ _ _ (cover_tile _)
  iexists _; isplitr
  swap; · iexact H13
  ipureintro
  try dsimp only
  exact View.read_writes_eq_canon _ _ _ (cover_tile _)

/-! ## The pipeline's proof data -/

/-- On core c: the arrays as the region finds them; after the body at point t each input's buffer at its block and
    the two outputs' at hOut and cOut of the input blocks; nothing else held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => hOut (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t)
    | ⟨13, _⟩ => cOut (iblk m c 0 t) (iblk m c 1 t) (iblk m c 2 t) (iblk m c 3 t) (iblk m c 4 t) (iblk m c 5 t) (iblk m c 6 t)
        (iblk m c 9 t) (iblk m c 10 t) (iblk m c 11 t)
  Φ _ := Pipeline.ΦA spec0 c
  q _ := fullShare
  owed _ := 0

/-- The data's arrays are the region-entry contents (the definition projected, the host prefix never unfolded). -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t
    = hOut (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) := by dsimp only [dats]
theorem after13 (c : Dev nD) (t : Fin cfg0.N) : (dats m 0 c).after 13 t
    = cOut (iblk m c 0 t) (iblk m c 1 t) (iblk m c 2 t) (iblk m c 3 t) (iblk m c 4 t) (iblk m c 5 t) (iblk m c 6 t)
        (iblk m c 9 t) (iblk m c 10 t) (iblk m c 11 t) := by dsimp only [dats]

/-- Each input's staging buffer holds its block at every point. -/
theorem before0 (c : Dev nD) (t : Fin cfg0.N) (d) : (dats m 0 c).before 0 t d = iblk m c 0 t := before0_of m (dats m 0 c) (A_eq m c 0) (after0 m c) t d
theorem before1 (c : Dev nD) (t : Fin cfg0.N) (d) : (dats m 0 c).before 1 t d = iblk m c 1 t := before1_of m (dats m 0 c) (A_eq m c 1) (after1 m c) t d
theorem before2 (c : Dev nD) (t : Fin cfg0.N) (d) : (dats m 0 c).before 2 t d = iblk m c 2 t := before2_of m (dats m 0 c) (A_eq m c 2) (after2 m c) t d
theorem before3 (c : Dev nD) (t : Fin cfg0.N) (d) : (dats m 0 c).before 3 t d = iblk m c 3 t := before3_of m (dats m 0 c) (A_eq m c 3) (after3 m c) t d
theorem before4 (c : Dev nD) (t : Fin cfg0.N) (d) : (dats m 0 c).before 4 t d = iblk m c 4 t := before4_of m (dats m 0 c) (A_eq m c 4) (after4 m c) t d
theorem before5 (c : Dev nD) (t : Fin cfg0.N) (d) : (dats m 0 c).before 5 t d = iblk m c 5 t := before5_of m (dats m 0 c) (A_eq m c 5) (after5 m c) t d
theorem before6 (c : Dev nD) (t : Fin cfg0.N) (d) : (dats m 0 c).before 6 t d = iblk m c 6 t := before6_of m (dats m 0 c) (A_eq m c 6) (after6 m c) t d
theorem before7 (c : Dev nD) (t : Fin cfg0.N) (d) : (dats m 0 c).before 7 t d = iblk m c 7 t := before7_of m (dats m 0 c) (A_eq m c 7) (after7 m c) t d
theorem before8 (c : Dev nD) (t : Fin cfg0.N) (d) : (dats m 0 c).before 8 t d = iblk m c 8 t := before8_of m (dats m 0 c) (A_eq m c 8) (after8 m c) t d
theorem before9 (c : Dev nD) (t : Fin cfg0.N) (d) : (dats m 0 c).before 9 t d = iblk m c 9 t := before9_of m (dats m 0 c) (A_eq m c 9) (after9 m c) t d
theorem before10 (c : Dev nD) (t : Fin cfg0.N) (d) : (dats m 0 c).before 10 t d = iblk m c 10 t := before10_of m (dats m 0 c) (A_eq m c 10) (after10 m c) t d
theorem before11 (c : Dev nD) (t : Fin cfg0.N) (d) : (dats m 0 c).before 11 t d = iblk m c 11 t := before11_of m (dats m 0 c) (A_eq m c 11) (after11 m c) t d

/-! ## The body obligation at a generic point -/

/-- What the body is called with at point t: the invariant, the core's dues, and every window's current staging buffer, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

/-- The body at any point: the inputs' buffers hold their blocks, so the triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of the program terminates without a fault, with
    every array of the region at what the proof data computes (an input as found, an output overwritten tile by tile
    by what the body left) and every other buffer as the two reshapes after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs, and its fifteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Hand

end
-- ==== Proof.LstmSpec.lean ====
/-
  One step of an LSTM cell over row-major matrices, at the extended reals.

  M rows of an input x and of a hidden state h (2048 entries each) meet four gates, each with two 2048 × N weight
  matrices and a bias row of N entries. The pre-activation of gate column j at row r is

      gate(r, j) = (Σ_k x(r,k) · Wx(k,j) + Σ_k h(r,k) · Wh(k,j)) + b(j),

  and with σ(z) = 1 / (1 + e^(-z)) the new cell and hidden entries are

      c'(r, j) = c(r, j) · σ(gate_f(r, j)) + σ(gate_i(r, j)) · tanh(gate_c(r, j))
      h'(r, j) = σ(gate_o(r, j)) · tanh(c'(r, j)).

  An entry (r, j) depends on row r of x and h, on entry (r, j) of c, on column j of the eight weight matrices and on
  entry j of the four bias rows, and on nothing else: a tile of the result computed from the matching rows and
  columns is the tile of the result computed from everything (the congruence lemmas below).
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Lstm

open Idealize.ShloMosaic Idealize.ShloMosaic.ValueIdx

/-- The shape of an a × b matrix. -/
abbrev Mat (a b : Nat) : Shape := ⟨2, ![a, b]⟩

section Formulas
variable {M N : Nat} (X Hh : (Mat M 2048).Idx → EReal) (C : (Mat M N).Idx → EReal)
  (Wxi Whi Wxf Whf Wxo Who Wxc Whc : (Mat 2048 N).Idx → EReal) (bi bf bo bc : Fin N → EReal)

/-- The pre-activation of one gate at row r, column j. -/
def gateAt (Wx Wh : (Mat 2048 N).Idx → EReal) (b : Fin N → EReal) (r : Fin M) (j : Fin N) : EReal :=
  ((∑ k : Fin 2048, X (ix2 r k) * Wx (ix2 k j)) + (∑ k : Fin 2048, Hh (ix2 r k) * Wh (ix2 k j))) + b j

/-- The new cell entry. -/
def cellAt (r : Fin M) (j : Fin N) : EReal :=
  C (ix2 r j) * Ideal.logistic (gateAt X Hh Wxf Whf bf r j)
    + Ideal.logistic (gateAt X Hh Wxi Whi bi r j) * Ideal.tanh (gateAt X Hh Wxc Whc bc r j)

/-- The new hidden entry. -/
def hidAt (r : Fin M) (j : Fin N) : EReal :=
  Ideal.logistic (gateAt X Hh Wxo Who bo r j) * Ideal.tanh (cellAt X Hh C Wxi Whi Wxf Whf Wxc Whc bi bf bc r j)

end Formulas

section Congr
variable {M N M' N' : Nat} {X Hh : (Mat M 2048).Idx → EReal} {X' Hh' : (Mat M' 2048).Idx → EReal}
  {C : (Mat M N).Idx → EReal} {C' : (Mat M' N').Idx → EReal}

/-- A gate entry read off rows and columns that agree with those of other matrices is the other matrices' entry. -/
theorem gateAt_congr {Wx Wh : (Mat 2048 N).Idx → EReal} {Wx' Wh' : (Mat 2048 N').Idx → EReal} {b : Fin N → EReal} {b' : Fin N' → EReal}
    {r : Fin M} {j : Fin N} {r' : Fin M'} {j' : Fin N'}
    (hX : ∀ k, X' (ix2 r' k) = X (ix2 r k)) (hH : ∀ k, Hh' (ix2 r' k) = Hh (ix2 r k))
    (hWx : ∀ k, Wx' (ix2 k j') = Wx (ix2 k j)) (hWh : ∀ k, Wh' (ix2 k j') = Wh (ix2 k j)) (hb : b' j' = b j) :
    gateAt X' Hh' Wx' Wh' b' r' j' = gateAt X Hh Wx Wh b r j := by
  unfold gateAt
  simp only [hX, hH, hWx, hWh, hb]

end Congr

/-! ## The step on the arguments as the programs take them -/

/-- The shape of x, h, c and of the two results: one leading entry, 4096 rows, 2048 columns. -/
abbrev Cube : Shape := ⟨3, ![1, 4096, 2048]⟩
/-- The shape of a bias vector. -/
abbrev Vec1 : Shape := ⟨1, ![2048]⟩

/-- A 1 × 4096 × 2048 array as the 4096 × 2048 matrix of its entries. -/
def flat (a : Cube.Idx → EReal) : (Mat 4096 2048).Idx → EReal := fun i => a (ix3 0 (i 0) (i 1))
/-- A bias vector as a function of the column. -/
def row (b : Vec1.Idx → EReal) : Fin 2048 → EReal := fun j => b (ix1 j)

theorem flat_apply (a : Cube.Idx → EReal) (r : Fin 4096) (k : Fin 2048) : flat a (ix2 r k) = a (ix3 0 r k) := rfl

/-- A 1 × 4096 × 2048 array re-laid as a 4096 × 2048 matrix is the matrix of its entries: both orders of the entries
    are the row-major one. -/
theorem relaid (a : Cube.Idx → EReal) (h : Cube.ShapeCasts (Mat 4096 2048)) :
    shapeCast (Mat 4096 2048) a h = flat a := by
  funext i
  obtain ⟨r, k, rfl⟩ : ∃ (r : Fin 4096) (k : Fin 2048), i = ix2 r k := ⟨i 0, i 1, eq_ix2 i⟩
  rw [flat_apply]
  exact shapeCast_apply a h (ix2 r k) (ix3 0 r k) (by
    rw [Shape.rowMajor_val_three, Shape.rowMajor_val_two]
    show (0 * 4096 + r.val) * 2048 + k.val = r.val * 2048 + k.val
    omega)

/-- And a 4096 × 2048 matrix re-laid as a 1 × 4096 × 2048 array has the matrix's entry (r, k) at (0, r, k). -/
theorem unflat (G : (Mat 4096 2048).Idx → EReal) (h : (Mat 4096 2048).ShapeCasts Cube) (y : Cube.Idx) :
    shapeCast Cube G h y = G (ix2 (⟨(y 1).val, (y 1).isLt⟩ : Fin 4096) (⟨(y 2).val, (y 2).isLt⟩ : Fin 2048)) := by
  have h0 : (y 0).val < 1 := (y 0).isLt
  exact shapeCast_apply G h y _ (by
    rw [Shape.rowMajor_val_three, Shape.rowMajor_val_two]
    show (y 1).val * 2048 + (y 2).val = ((y 0).val * 4096 + (y 1).val) * 2048 + (y 2).val
    have : (y 0).val = 0 := by omega
    rw [this]; omega)

section Results
variable (x h c : Cube.Idx → EReal) (wxi whi wxf whf wxo who wxc whc : (Mat 2048 2048).Idx → EReal) (bi bf bo bc : Vec1.Idx → EReal)

/-- The new cell state as a 1 × 4096 × 2048 array. -/
def COut : Cube.Idx → EReal := fun y =>
  cellAt (flat x) (flat h) (flat c) wxi whi wxf whf wxc whc (row bi) (row bf) (row bc) (y 1) (y 2)

/-- The new hidden state as a 1 × 4096 × 2048 array. -/
def HOut : Cube.Idx → EReal := fun y =>
  hidAt (flat x) (flat h) (flat c) wxi whi wxf whf wxo who wxc whc (row bi) (row bf) (row bo) (row bc) (y 1) (y 2)

end Results

end Cert.Lstm

end
-- ==== Proof.Tile.lean ====
/-
  The body of the LSTM step at one grid point, entry by entry.

  The body holds a block of 256 rows of x and of h (all 2048 columns), a 256 × 256 tile of c, a block of 256 columns
  of each of the eight weight matrices and of the four stacked bias rows. Each gate is two matrix products into zero
  accumulators, added, plus the gate's bias row repeated down the rows; a product into a zero accumulator is the sum
  over the contracted coordinate, and rounding an operand to a narrower format changes nothing at the extended reals.
  So entry (p, q) of what the body stores is the cell's and the hidden state's formula (LstmSpec) of the blocks.
-/
import proofs.«110121_j33423435498395_2_alg».proof.Proof.Gen.KernelIdeal.Skeleton
import proofs.«110121_j33423435498395_2_alg».proof.Proof.LstmSpec
import Idealize.ShloMosaic.Lib.Pipeline.Value
import Idealize.ShloMosaic.Lib.ValueIdx
import Idealize.ShloMosaic.PureOps.Ideal.Laws

noncomputable section

open scoped BigOperators

namespace Cert.KernelIdeal.Tile

open Cert.KernelIdeal Cert.KernelIdeal.Gen Cert.Lstm Idealize.ShloMosaic Idealize.ShloMosaic.ValueIdx

/-- The operand coordinates of the tile's product: output (p, q) and contracted k meet the left operand at (p, k) -/
theorem lhs0 (i : S256x256.Idx) (k : dot_S256x2048_S2048x256_S256x256_1_0_0_1_n_n.contr.Idx) :
    (dot_S256x2048_S2048x256_S256x256_1_0_0_1_n_n.lhsIdx i k 0).val = (i 0).val := by
  unfold DotDims.lhsIdx
  rw [dif_neg (show ¬(0 : Fin S256x2048.rank) ∈ dot_S256x2048_S2048x256_S256x256_1_0_0_1_n_n.lhsBatch by decide),
    dif_pos (show (0 : Fin S256x2048.rank) ∈ dot_S256x2048_S2048x256_S256x256_1_0_0_1_n_n.lhsNonContracting by decide)]
  rfl
theorem lhs1 (i : S256x256.Idx) (k : dot_S256x2048_S2048x256_S256x256_1_0_0_1_n_n.contr.Idx) :
    (dot_S256x2048_S2048x256_S256x256_1_0_0_1_n_n.lhsIdx i k 1).val = (k ⟨0, by decide⟩).val :=
  dot_S256x2048_S2048x256_S256x256_1_0_0_1_n_n.lhsIdx_val_of_single rfl i k
/-- and the right operand at (k, q). -/
theorem rhs0 (i : S256x256.Idx) (k : dot_S256x2048_S2048x256_S256x256_1_0_0_1_n_n.contr.Idx) :
    (dot_S256x2048_S2048x256_S256x256_1_0_0_1_n_n.rhsIdx i k 0).val = (k ⟨0, by decide⟩).val :=
  dot_S256x2048_S2048x256_S256x256_1_0_0_1_n_n.rhsIdx_val_of_single rfl i k
theorem rhs1 (i : S256x256.Idx) (k : dot_S256x2048_S2048x256_S256x256_1_0_0_1_n_n.contr.Idx) :
    (dot_S256x2048_S2048x256_S256x256_1_0_0_1_n_n.rhsIdx i k 1).val = (i 1).val := by
  unfold DotDims.rhsIdx
  rw [dif_neg (show ¬(1 : Fin S2048x256.rank) ∈ dot_S256x2048_S2048x256_S256x256_1_0_0_1_n_n.rhsBatch by decide),
    dif_pos (show (1 : Fin S2048x256.rank) ∈ dot_S256x2048_S2048x256_S256x256_1_0_0_1_n_n.rhsNonContracting by decide)]
  rfl

/-- A 256 × 2048 by 2048 × 256 product into the zero accumulator, at (p, q): the sum over the 2048 contracted entries. -/
theorem matmul_tile (A : FVec Ideal S256x2048 .bf16) (B : FVec Ideal S2048x256 .bf16) (p q : Fin 256) :
    matmul dot_S256x2048_S2048x256_S256x256_1_0_0_1_n_n none A B (constant S256x256 .f32 0x00000000#32) (ix2 p q)
      = ∑ k : Fin 2048, A (ix2 p k) * B (ix2 k q) := by
  show FloatOps.matmul _ none A B (constant S256x256 .f32 0x00000000#32) (ix2 p q) = _
  rw [Ideal.matmul_constant_zero_apply,
    ← Equiv.sum_comp (contrEquiv1 dot_S256x2048_S2048x256_S256x256_1_0_0_1_n_n 2048 rfl rfl).symm]
  refine Finset.sum_congr rfl fun k _ => ?_
  have hk := contrEquiv1_symm_val dot_S256x2048_S2048x256_S256x256_1_0_0_1_n_n 2048 rfl rfl k
  have el : dot_S256x2048_S2048x256_S256x256_1_0_0_1_n_n.lhsIdx (ix2 p q)
      ((contrEquiv1 dot_S256x2048_S2048x256_S256x256_1_0_0_1_n_n 2048 rfl rfl).symm k) = ix2 p k := funext fun a => Fin.ext (by
    match a with
    | ⟨0, _⟩ => exact lhs0 _ _
    | ⟨1, _⟩ => exact (lhs1 _ _).trans hk)
  have er : dot_S256x2048_S2048x256_S256x256_1_0_0_1_n_n.rhsIdx (ix2 p q)
      ((contrEquiv1 dot_S256x2048_S2048x256_S256x256_1_0_0_1_n_n 2048 rfl rfl).symm k) = ix2 k q := funext fun a => Fin.ext (by
    match a with
    | ⟨0, _⟩ => exact (rhs0 _ _).trans hk
    | ⟨1, _⟩ => exact rhs1 _ _)
  rw [el, er]

/-- A bias row repeated down the 256 rows of a tile. -/
theorem bias_row (v : Vec Ideal S1x256 .f32) (hs : S1x256.ShapeCasts S1x256) (hb : S1x256.Broadcasts S256x256) (p q : Fin 256) :
    broadcastTo S256x256 (shapeCast S1x256 v hs) hb (ix2 p q) = v (ix2 0 q) := by
  rw [shapeCast_self]
  exact broadcastTo_apply v hb (ix2 p q) (ix2 0 q) (fun a => by
    match a with
    | ⟨0, _⟩ => rfl
    | ⟨1, _⟩ => rfl)

/-- One gate's pre-activation tile: two products added, plus the bias row. -/
theorem gate_tile (A1 A2 : FVec Ideal S256x2048 .bf16) (B1 B2 : FVec Ideal S2048x256 .bf16) (brow : Vec Ideal S1x256 .f32)
    (hs : S1x256.ShapeCasts S1x256) (hb : S1x256.Broadcasts S256x256) (p q : Fin 256) :
    addf (addf (matmul dot_S256x2048_S2048x256_S256x256_1_0_0_1_n_n none A1 B1 (constant S256x256 .f32 0x00000000#32))
        (matmul dot_S256x2048_S2048x256_S256x256_1_0_0_1_n_n none A2 B2 (constant S256x256 .f32 0x00000000#32)))
      (broadcastTo S256x256 (shapeCast S1x256 brow hs) hb) (ix2 p q)
    = gateAt A1 A2 B1 B2 (fun j => brow (ix2 0 j)) p q := by
  show (matmul dot_S256x2048_S2048x256_S256x256_1_0_0_1_n_n none A1 B1 (constant S256x256 .f32 0x00000000#32) (ix2 p q)
      + matmul dot_S256x2048_S2048x256_S256x256_1_0_0_1_n_n none A2 B2 (constant S256x256 .f32 0x00000000#32) (ix2 p q))
    + broadcastTo S256x256 (shapeCast S1x256 brow hs) hb (ix2 p q) = _
  rw [matmul_tile, matmul_tile, bias_row]
  rfl

/-- The re-laid input blocks are the blocks. -/
theorem pay3_eq (v0 : Vec Ideal S256x2048 .bf16) : k0_pay3 v0 = v0 := shapeCast_self v0 _
theorem pay4_eq (v2 : Vec Ideal S256x2048 .bf16) : k0_pay4 v2 = v2 := shapeCast_self v2 _
theorem pay5_eq (v4 : Vec Ideal S256x256 .f32) : k0_pay5 v4 = v4 := shapeCast_self v4 _
/-- A weight block rounded to the narrower format is the block. -/
theorem pay8_eq (v30 : Vec Ideal S2048x256 .f32) : k0_pay8 v30 = v30 := rfl

/-- The input gate's tile. -/
theorem pay6_apply (v0 v2 : Vec Ideal S256x2048 .bf16) (v6 v8 : Vec Ideal S2048x256 .f32) (v13 : Vec Ideal S1x256 .f32) (p q : Fin 256) :
    k0_pay6 v0 v2 v6 v8 v13 (ix2 p q) = Ideal.logistic (gateAt v0 v2 v6 v8 (fun j => v13 (ix2 0 j)) p q) := by
  refine (congrArg Ideal.logistic (gate_tile (k0_pay3 v0) (k0_pay4 v2) (truncf .bf16 v6 bitsLt_bf16_f32) (truncf .bf16 v8 bitsLt_bf16_f32) v13
    shapeCasts_S1x256_S1x256 broadcasts_S1x256_S256x256 p q)).trans ?_
  rw [pay3_eq, pay4_eq]
  rfl

/-- The forget gate's tile. -/
theorem pay7_apply (v0 v2 : Vec Ideal S256x2048 .bf16) (v18 v20 : Vec Ideal S2048x256 .f32) (v25 : Vec Ideal S1x256 .f32) (p q : Fin 256) :
    k0_pay7 v0 v2 v18 v20 v25 (ix2 p q) = Ideal.logistic (gateAt v0 v2 v18 v20 (fun j => v25 (ix2 0 j)) p q) := by
  refine (congrArg Ideal.logistic (gate_tile (k0_pay3 v0) (k0_pay4 v2) (truncf .bf16 v18 bitsLt_bf16_f32) (truncf .bf16 v20 bitsLt_bf16_f32) v25
    shapeCasts_S1x256_S1x256 broadcasts_S1x256_S256x256 p q)).trans ?_
  rw [pay3_eq, pay4_eq]
  rfl

/-- The new cell tile from the x and h blocks, the c tile, the two gate tiles already formed, and the candidate's
    weights and bias row. -/
theorem pay1_apply (v1 v3 : FVec Ideal S256x2048 .bf16) (v5 v17 v29 : FVec Ideal S256x256 .f32) (v42 v44 : Vec Ideal S2048x256 .f32)
    (v49 : Vec Ideal S1x256 .f32) (p q : Fin 256) :
    k0_pay1 v1 v3 v5 v17 v29 v42 v44 v49 (ix2 p q)
      = v5 (ix2 p q) * v29 (ix2 p q) + v17 (ix2 p q) * Ideal.tanh (gateAt v1 v3 v42 v44 (fun j => v49 (ix2 0 j)) p q) :=
  congrArg (fun z => v5 (ix2 p q) * v29 (ix2 p q) + v17 (ix2 p q) * Ideal.tanh z)
    (gate_tile v1 v3 (truncf .bf16 v42 bitsLt_bf16_f32) (truncf .bf16 v44 bitsLt_bf16_f32) v49
      shapeCasts_S1x256_S1x256 broadcasts_S1x256_S256x256 p q)

/-- The new hidden tile: the output gate's tile times tanh of the new cell tile. -/
theorem pay2_apply (v1 v3 : FVec Ideal S256x2048 .bf16) (v5 v17 v29 : FVec Ideal S256x256 .f32) (v31 : FVec Ideal S2048x256 .bf16)
    (v32 : Vec Ideal S2048x256 .f32) (v37 : Vec Ideal S1x256 .f32) (v42 v44 : Vec Ideal S2048x256 .f32) (v49 : Vec Ideal S1x256 .f32)
    (p q : Fin 256) :
    k0_pay2 v1 v3 v5 v17 v29 v31 v32 v37 v42 v44 v49 (ix2 p q)
      = Ideal.logistic (gateAt v1 v3 v31 v32 (fun j => v37 (ix2 0 j)) p q) * Ideal.tanh (k0_pay1 v1 v3 v5 v17 v29 v42 v44 v49 (ix2 p q)) :=
  congrArg (fun z => Ideal.logistic z * Ideal.tanh (k0_pay1 v1 v3 v5 v17 v29 v42 v44 v49 (ix2 p q)))
    (gate_tile v1 v3 v31 (truncf .bf16 v32 bitsLt_bf16_f32) v37 shapeCasts_S1x256_S1x256 broadcasts_S1x256_S256x256 p q)

end Cert.KernelIdeal.Tile

end
-- ==== Proof.Blocks.lean ====
/-
  From tiles to arrays: what the region of the LSTM step leaves in its two result arrays.

  At grid point t the windows of the two results sit at tile (bi, hi) of their 4096 × 2048 arrays; the x and h windows
  at rows [256·bi, 256·bi + 256), all columns; the c window at tile (bi, hi); the eight weight windows and the bias
  window at all rows, columns [256·hi, 256·hi + 256). So entry (p, q) of a tile the body stores is the cell's (the
  hidden state's) formula at row 256·bi + p and column 256·hi + q of the whole arrays: each write-back is a block of
  ONE function of the array index. The 16 × 8 tiles cover the arrays, so after the region each result array IS that
  function of the arrays the region found.
-/
import proofs.«110121_j33423435498395_2_alg».proof.Proof.FrameIdeal
import proofs.«110121_j33423435498395_2_alg».proof.Proof.Tile
import proofs.«110121_j33423435498395_2_alg».proof.Proof.LstmSpec
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.Lstm
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-! ## One tile, over blocks that are restrictions of whole arrays -/

section Tiles
variable (x0 x1 : Vec Ideal S256x2048 .bf16) (x2 : Vec Ideal S256x256 .f32) (x3 x4 x5 x6 x7 x8 x9 x10 : Vec Ideal S2048x256 .f32)
  (x11 : Vec Ideal S4x256 .f32)
  (X Hh C2 : S4096x2048.Idx → EReal) (W3 W4 W5 W6 W7 W8 W9 W10 : S2048x2048.Idx → EReal) (B : S4x2048.Idx → EReal)
  (r : Fin 4096) (j : Fin 2048) (p q : Fin 256)

/-- Row g of the bias block, as the body loads it. -/
theorem bias_ld (g : Fin 4) (off : Fin 2 → Nat) (ho : off = ![g.val, 0]) (inb : ∀ a, off a + S1x256.size a ≤ S4x256.size a) :
    View.ld x11 (Rect.unit (s := S4x256) off S1x256.size inb) (ix2 0 q) = x11 (ix2 g q) := by
  subst ho
  show x11 ((Rect.unit (s := S4x256) ![g.val, 0] S1x256.size inb).idx (ix2 0 q)) = _
  refine congrArg x11 (funext fun a => Fin.ext ?_)
  match a with
  | ⟨0, _⟩ => show g.val + 1 * 0 = g.val; omega
  | ⟨1, _⟩ => show 0 + 1 * q.val = q.val; omega

/-- The cell payload on the twelve blocks (the re-laid blocks and the two gate tiles formed first). -/
abbrev cPay : FVec Ideal S256x256 .f32 :=
  k0_pay1 (k0_pay3 x0) (k0_pay4 x1) (k0_pay5 x2)
    (k0_pay6 x0 x1 x3 x4 (View.ld x11 Hand.rb0)) (k0_pay7 x0 x1 x5 x6 (View.ld x11 Hand.rb1)) x9 x10 (View.ld x11 Hand.rb3)

/-- The hidden payload. -/
abbrev hPay : FVec Ideal S256x256 .f32 :=
  k0_pay2 (k0_pay3 x0) (k0_pay4 x1) (k0_pay5 x2)
    (k0_pay6 x0 x1 x3 x4 (View.ld x11 Hand.rb0)) (k0_pay7 x0 x1 x5 x6 (View.ld x11 Hand.rb1))
    (k0_pay8 x7) x8 (View.ld x11 Hand.rb2) x9 x10 (View.ld x11 Hand.rb3)

/-- What the body leaves in the cell tile is its one store's payload. -/
theorem cOut_eq : Hand.cOut x0 x1 x2 x3 x4 x5 x6 x9 x10 x11 = cPay x0 x1 x2 x3 x4 x5 x6 x9 x10 x11 := by
  unfold Hand.cOut
  rw [View.canon_unit_zero hz]
  simp only [View.ld_unit_zero (S := S256x2048) hz, View.ld_unit_zero (S := S256x256) hz, View.ld_unit_zero (S := S2048x256) hz]

/-- And in the hidden tile. -/
theorem hOut_eq : Hand.hOut x0 x1 x2 x3 x4 x5 x6 x7 x8 x9 x10 x11 = hPay x0 x1 x2 x3 x4 x5 x6 x7 x8 x9 x10 x11 := by
  unfold Hand.hOut
  rw [View.canon_unit_zero hz]
  simp only [View.ld_unit_zero (S := S256x2048) hz, View.ld_unit_zero (S := S256x256) hz, View.ld_unit_zero (S := S2048x256) hz]

variable (h0 : ∀ k, x0 (ix2 p k) = X (ix2 r k)) (h1 : ∀ k, x1 (ix2 p k) = Hh (ix2 r k)) (h2 : x2 (ix2 p q) = C2 (ix2 r j))
  (h3 : ∀ k, x3 (ix2 k q) = W3 (ix2 k j)) (h4 : ∀ k, x4 (ix2 k q) = W4 (ix2 k j))
  (h5 : ∀ k, x5 (ix2 k q) = W5 (ix2 k j)) (h6 : ∀ k, x6 (ix2 k q) = W6 (ix2 k j))
  (h7 : ∀ k, x7 (ix2 k q) = W7 (ix2 k j)) (h8 : ∀ k, x8 (ix2 k q) = W8 (ix2 k j))
  (h9 : ∀ k, x9 (ix2 k q) = W9 (ix2 k j)) (h10 : ∀ k, x10 (ix2 k q) = W10 (ix2 k j))
  (hb : ∀ g : Fin 4, x11 (ix2 g q) = B (ix2 g j))

include h0 h1 h2 h3 h4 h5 h6 h9 h10 hb in
/-- Entry (p, q) of the cell payload on blocks that are rows r ↔ p and columns j ↔ q of whole arrays is the cell's
    formula at (r, j) of the whole arrays. -/
theorem cPay_apply :
    cPay x0 x1 x2 x3 x4 x5 x6 x9 x10 x11 (ix2 p q)
      = cellAt X Hh C2 W3 W4 W5 W6 W9 W10 (fun j => B (ix2 0 j)) (fun j => B (ix2 1 j)) (fun j => B (ix2 3 j)) r j := by
  have gi : gateAt x0 x1 x3 x4 (fun j => View.ld x11 Hand.rb0 (ix2 0 j)) p q = gateAt X Hh W3 W4 (fun j => B (ix2 0 j)) r j :=
    gateAt_congr h0 h1 h3 h4 ((bias_ld x11 q 0 _ rfl _).trans (hb 0))
  have gf : gateAt x0 x1 x5 x6 (fun j => View.ld x11 Hand.rb1 (ix2 0 j)) p q = gateAt X Hh W5 W6 (fun j => B (ix2 1 j)) r j :=
    gateAt_congr h0 h1 h5 h6 ((bias_ld x11 q 1 _ rfl _).trans (hb 1))
  have gc : gateAt x0 x1 x9 x10 (fun j => View.ld x11 Hand.rb3 (ix2 0 j)) p q = gateAt X Hh W9 W10 (fun j => B (ix2 3 j)) r j :=
    gateAt_congr h0 h1 h9 h10 ((bias_ld x11 q 3 _ rfl _).trans (hb 3))
  unfold cPay
  rw [Tile.pay1_apply, Tile.pay5_eq, Tile.pay6_apply, Tile.pay7_apply, Tile.pay3_eq, Tile.pay4_eq, h2, gi, gf, gc]
  rfl

include h0 h1 h2 h3 h4 h5 h6 h7 h8 h9 h10 hb in
/-- The same for the hidden payload. -/
theorem hPay_apply :
    hPay x0 x1 x2 x3 x4 x5 x6 x7 x8 x9 x10 x11 (ix2 p q)
      = hidAt X Hh C2 W3 W4 W5 W6 W7 W8 W9 W10 (fun j => B (ix2 0 j)) (fun j => B (ix2 1 j)) (fun j => B (ix2 2 j)) (fun j => B (ix2 3 j)) r j := by
  have go : gateAt x0 x1 x7 x8 (fun j => View.ld x11 Hand.rb2 (ix2 0 j)) p q = gateAt X Hh W7 W8 (fun j => B (ix2 2 j)) r j :=
    gateAt_congr h0 h1 h7 h8 ((bias_ld x11 q 2 _ rfl _).trans (hb 2))
  have hc := cPay_apply x0 x1 x2 x3 x4 x5 x6 x9 x10 x11 X Hh C2 W3 W4 W5 W6 W9 W10 B r j p q h0 h1 h2 h3 h4 h5 h6 h9 h10 hb
  unfold cPay at hc
  rw [Tile.pay3_eq, Tile.pay4_eq] at hc
  unfold hPay
  rw [Tile.pay2_apply, Tile.pay3_eq, Tile.pay4_eq, Tile.pay8_eq, go]
  exact congrArg (fun z => Ideal.logistic (gateAt X Hh W7 W8 (fun j => B (ix2 2 j)) r j) * Ideal.tanh z) hc

end Tiles

end Cert.KernelIdeal.Blocks

end
-- ==== Proof.Entry.lean ====
/-
  What the region of the LSTM step finds in its windows' arrays.

  Before the region the program re-lays x, h and c (1 × 4096 × 2048) as 4096 × 2048 matrices, rounds x and h to a narrower
  format (the identity at the extended reals), and stacks the four bias vectors, each laid as a 1 × 2048 row, into a
  4 × 2048 matrix whose row g is bias vector g. The weight matrices are windows' arrays as launched.
-/
import proofs.«110121_j33423435498395_2_alg».proof.Proof.FrameIdeal
import proofs.«110121_j33423435498395_2_alg».proof.Proof.LstmSpec
import Idealize.ShloMosaic.Lib.Pipeline.Value
import Idealize.ShloMosaic.Lib.ValueIdx
import Idealize.ShloMosaic.Lib.StableHlo.Run

noncomputable section

namespace Cert.KernelIdeal.Entry

open Cert.KernelIdeal Cert.KernelIdeal.Gen Cert.Lstm
open Idealize.ShloMosaic Idealize.ShloMosaic.TcCoe Idealize.ShloMosaic.ValueIdx Idealize.ShloMosaic.StableHlo Idealize.SL.Sem

variable (m : (ℓ : Loc nD τ sig) → Buf (Elt Ideal) ℓ)

/-- The arrays of the x, h, c and bias windows as the region finds them. -/
abbrev EX (c : Dev nD) : S4096x2048.Idx → EReal := Hand.V m c main_v1
abbrev EH (c : Dev nD) : S4096x2048.Idx → EReal := Hand.V m c main_v3
abbrev EC (c : Dev nD) : S4096x2048.Idx → EReal := Hand.V m c main_v4
abbrev EB (c : Dev nD) : S4x2048.Idx → EReal := Hand.V m c main_v9

/-- The x window's array: x as a matrix. -/
theorem entry_x (c : Dev nD) : EX m c = flat (m ((c : Thread nD τ).loc main_arg0)) := by
  have e : EX m c
      = truncf (F := Ideal) .bf16 (shapeCast S4096x2048 (m ((c : Thread nD τ).loc main_arg0)) shapeCasts_S1x4096x2048_S4096x2048) bitsLt_bf16_f32 := by
    show StableHlo.after hostOps0 (fun b => m (c, b)) (Proc.devRef .tc main_v1) = _
    after_results; rfl
  rw [e]
  exact relaid _ _

/-- The h window's array: h as a matrix. -/
theorem entry_h (c : Dev nD) : EH m c = flat (m ((c : Thread nD τ).loc main_arg1)) := by
  have e : EH m c
      = truncf (F := Ideal) .bf16 (shapeCast S4096x2048 (m ((c : Thread nD τ).loc main_arg1)) shapeCasts_S1x4096x2048_S4096x2048) bitsLt_bf16_f32 := by
    show StableHlo.after hostOps0 (fun b => m (c, b)) (Proc.devRef .tc main_v3) = _
    after_results; rfl
  rw [e]
  exact relaid _ _

/-- The c window's array: c as a matrix. -/
theorem entry_c (c : Dev nD) : EC m c = flat (m ((c : Thread nD τ).loc main_arg2)) := by
  have e : EC m c
      = shapeCast S4096x2048 (m ((c : Thread nD τ).loc main_arg2)) shapeCasts_S1x4096x2048_S4096x2048 := by
    show StableHlo.after hostOps0 (fun b => m (c, b)) (Proc.devRef .tc main_v4) = _
    after_results; rfl
  rw [e]
  exact relaid _ _

/-- The bias window's array: the four bias vectors, each laid as a row, stacked. -/
theorem entry_b (c : Dev nD) : EB m c
    = concatenate S4x2048 0
        [⟨S1x2048, broadcastInDim S1x2048 ![1] bcast_S2048_S1x2048_1 (m ((c : Thread nD τ).loc main_arg11))⟩,
         ⟨S1x2048, broadcastInDim S1x2048 ![1] bcast_S2048_S1x2048_1 (m ((c : Thread nD τ).loc main_arg12))⟩,
         ⟨S1x2048, broadcastInDim S1x2048 ![1] bcast_S2048_S1x2048_1 (m ((c : Thread nD τ).loc main_arg13))⟩,
         ⟨S1x2048, broadcastInDim S1x2048 ![1] bcast_S2048_S1x2048_1 (m ((c : Thread nD τ).loc main_arg14))⟩]
        concatenates_S1x2048_S1x2048_S1x2048_S1x2048_S4x2048_d0 := by
  show StableHlo.after hostOps0 (fun b => m (c, b)) (Proc.devRef .tc main_v9) = _
  after_results; rfl

/-- A vector laid as a 1 × 2048 row, at column j. -/
theorem as_row (b : S2048.Idx → EReal) (h : S2048.BroadcastsInDim S1x2048 ![1]) (j : Fin 2048) :
    broadcastInDim S1x2048 ![1] h b (ix2 0 j) = row b j :=
  broadcastInDim_apply ![1] h b (ix2 0 j) (ix1 j) (fun a => by
    match a with
    | ⟨0, _⟩ => show j.val = if (2048 : Nat) = 1 then 0 else j.val; rw [if_neg (by decide)])

/-- Row g of four stacked rows is row g. -/
theorem stacked (r0 r1 r2 r3 : S1x2048.Idx → EReal) (h : Shape.Concatenates [S1x2048, S1x2048, S1x2048, S1x2048] S4x2048 0) (j : Fin 2048) :
    concatenate S4x2048 0 [⟨S1x2048, r0⟩, ⟨S1x2048, r1⟩, ⟨S1x2048, r2⟩, ⟨S1x2048, r3⟩] h (ix2 0 j) = r0 (ix2 0 j)
    ∧ concatenate S4x2048 0 [⟨S1x2048, r0⟩, ⟨S1x2048, r1⟩, ⟨S1x2048, r2⟩, ⟨S1x2048, r3⟩] h (ix2 1 j) = r1 (ix2 0 j)
    ∧ concatenate S4x2048 0 [⟨S1x2048, r0⟩, ⟨S1x2048, r1⟩, ⟨S1x2048, r2⟩, ⟨S1x2048, r3⟩] h (ix2 2 j) = r2 (ix2 0 j)
    ∧ concatenate S4x2048 0 [⟨S1x2048, r0⟩, ⟨S1x2048, r1⟩, ⟨S1x2048, r2⟩, ⟨S1x2048, r3⟩] h (ix2 3 j) = r3 (ix2 0 j) := by
  have off : ∀ (g : Fin 4) (b : Fin S1x2048.rank), b.cast (rfl : S1x2048.rank = S4x2048.rank) ≠ (0 : Fin S4x2048.rank) →
      ((ix2 (0 : Fin 1) j : S1x2048.Idx) b).val = ((ix2 g j : S4x2048.Idx) (b.cast rfl)).val := fun g b hb => by
    match b with
    | ⟨0, _⟩ => exact absurd rfl hb
    | ⟨1, _⟩ => rfl
  refine ⟨?_, ?_, ?_, ?_⟩
  · exact concatenate_apply_piece 0 [⟨S1x2048, r0⟩, ⟨S1x2048, r1⟩, ⟨S1x2048, r2⟩, ⟨S1x2048, r3⟩] h (ix2 0 j) 0 (by show 0 < 4; omega) S1x2048 r0 rfl rfl 0 (by rfl) (ix2 0 j) (off 0) (by rfl)
  · exact concatenate_apply_piece 0 [⟨S1x2048, r0⟩, ⟨S1x2048, r1⟩, ⟨S1x2048, r2⟩, ⟨S1x2048, r3⟩] h (ix2 1 j) 1 (by show 1 < 4; omega) S1x2048 r1 rfl rfl 1 (by rfl) (ix2 0 j) (off 1) (by rfl)
  · exact concatenate_apply_piece 0 [⟨S1x2048, r0⟩, ⟨S1x2048, r1⟩, ⟨S1x2048, r2⟩, ⟨S1x2048, r3⟩] h (ix2 2 j) 2 (by show 2 < 4; omega) S1x2048 r2 rfl rfl 2 (by rfl) (ix2 0 j) (off 2) (by rfl)
  · exact concatenate_apply_piece 0 [⟨S1x2048, r0⟩, ⟨S1x2048, r1⟩, ⟨S1x2048, r2⟩, ⟨S1x2048, r3⟩] h (ix2 3 j) 3 (by show 3 < 4; omega) S1x2048 r3 rfl rfl 3 (by rfl) (ix2 0 j) (off 3) (by rfl)

/-- Row g of the bias window's array is bias vector g. -/
theorem entry_b_rows (c : Dev nD) (j : Fin 2048) :
    EB m c (ix2 0 j) = row (m ((c : Thread nD τ).loc main_arg11)) j
    ∧ EB m c (ix2 1 j) = row (m ((c : Thread nD τ).loc main_arg12)) j
    ∧ EB m c (ix2 2 j) = row (m ((c : Thread nD τ).loc main_arg13)) j
    ∧ EB m c (ix2 3 j) = row (m ((c : Thread nD τ).loc main_arg14)) j := by
  rw [entry_b]
  obtain ⟨h0, h1, h2, h3⟩ := stacked _ _ _ _ concatenates_S1x2048_S1x2048_S1x2048_S1x2048_S4x2048_d0 j
  exact ⟨h0.trans (as_row _ _ j), h1.trans (as_row _ _ j), h2.trans (as_row _ _ j), h3.trans (as_row _ _ j)⟩

end Cert.KernelIdeal.Entry

end
-- ==== Proof.Arrays.lean ====
/-
  The two result arrays of the LSTM step's region, as functions of the arrays the region found.

  The grid is 8 × 16; at point t the two result windows sit at tile (bi, hi), bi < 16 and hi < 8, every tile at some
  point. Each input window's block index is read off the result's: (bi, 0) for x and h, (bi, hi) for c, (0, hi) for the
  weights and the bias. An element of a block sits in its array at block index × block size + its coordinate in the
  block. With that, what point t writes back is block t of ONE function of the array index (the cell's and the hidden
  state's formulas of the whole arrays), and the blocks cover the arrays.
-/
import proofs.«110121_j33423435498395_2_alg».proof.Proof.FrameIdeal
import proofs.«110121_j33423435498395_2_alg».proof.Proof.Blocks
import proofs.«110121_j33423435498395_2_alg».proof.Proof.Entry
import Idealize.ShloMosaic.Lib.Pipeline.Value
import Idealize.ShloMosaic.Lib.ValueIdx

set_option maxRecDepth 16384

noncomputable section

namespace Cert.KernelIdeal.Arrays

open Cert.KernelIdeal Cert.KernelIdeal.Gen Cert.KernelIdeal.Entry Cert.Lstm
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The weight windows' arrays as the region finds them. -/
abbrev EW3 (c : Dev nD) : S2048x2048.Idx → EReal := Hand.V m c main_arg3
abbrev EW4 (c : Dev nD) : S2048x2048.Idx → EReal := Hand.V m c main_arg4
abbrev EW5 (c : Dev nD) : S2048x2048.Idx → EReal := Hand.V m c main_arg5
abbrev EW6 (c : Dev nD) : S2048x2048.Idx → EReal := Hand.V m c main_arg6
abbrev EW7 (c : Dev nD) : S2048x2048.Idx → EReal := Hand.V m c main_arg7
abbrev EW8 (c : Dev nD) : S2048x2048.Idx → EReal := Hand.V m c main_arg8
abbrev EW9 (c : Dev nD) : S2048x2048.Idx → EReal := Hand.V m c main_arg9
abbrev EW10 (c : Dev nD) : S2048x2048.Idx → EReal := Hand.V m c main_arg10

/-- The new cell state as a 4096 × 2048 matrix, from the arrays the region finds. -/
def GC (c : Dev nD) : S4096x2048.Idx → EReal := fun i =>
  cellAt (EX m c) (EH m c) (EC m c) (EW3 m c) (EW4 m c) (EW5 m c) (EW6 m c) (EW9 m c) (EW10 m c)
    (fun j => EB m c (ix2 0 j)) (fun j => EB m c (ix2 1 j)) (fun j => EB m c (ix2 3 j))
    ⟨(i 0).val, (i 0).isLt⟩ ⟨(i 1).val, (i 1).isLt⟩

/-- The new hidden state. -/
def GH (c : Dev nD) : S4096x2048.Idx → EReal := fun i =>
  hidAt (EX m c) (EH m c) (EC m c) (EW3 m c) (EW4 m c) (EW5 m c) (EW6 m c) (EW7 m c) (EW8 m c) (EW9 m c) (EW10 m c)
    (fun j => EB m c (ix2 0 j)) (fun j => EB m c (ix2 1 j)) (fun j => EB m c (ix2 2 j)) (fun j => EB m c (ix2 3 j))
    ⟨(i 0).val, (i 0).isLt⟩ ⟨(i 1).val, (i 1).isLt⟩

/-! ## The index maps over the grid -/

/-- The result windows' tile (bi, hi) stays in the 16 × 8 range, and every tile is some point's. -/
theorem bounds12 : ∀ t : Fin cfg0.N, win0_12.index t (0 : Fin 2) < 16 ∧ win0_12.index t (1 : Fin 2) < 8 :=
  (by decide +kernel : ∀ t : Fin grid0.N, win0_12.index t (0 : Fin 2) < 16 ∧ win0_12.index t (1 : Fin 2) < 8)
theorem onto12 : ∀ (q0 : Fin 16) (q1 : Fin 8), ∃ t : Fin cfg0.N, win0_12.index t = ![q0.val, q1.val] :=
  (by decide +kernel : ∀ (q0 : Fin 16) (q1 : Fin 8), ∃ t : Fin grid0.N, win0_12.index t = ![q0.val, q1.val])
theorem onto13 : ∀ (q0 : Fin 16) (q1 : Fin 8), ∃ t : Fin cfg0.N, win0_13.index t = ![q0.val, q1.val] :=
  (by decide +kernel : ∀ (q0 : Fin 16) (q1 : Fin 8), ∃ t : Fin grid0.N, win0_13.index t = ![q0.val, q1.val])

/-- Each other window's block index, read off the hidden result's. -/
theorem facts13 : ∀ t : Fin cfg0.N, win0_13.index t (0 : Fin 2) = win0_12.index t (0 : Fin 2) ∧ win0_13.index t (1 : Fin 2) = win0_12.index t (1 : Fin 2) :=
  (by decide +kernel : ∀ t : Fin grid0.N, win0_13.index t (0 : Fin 2) = win0_12.index t (0 : Fin 2) ∧ win0_13.index t (1 : Fin 2) = win0_12.index t (1 : Fin 2))
theorem facts0 : ∀ t : Fin cfg0.N, win0_0.index t (0 : Fin 2) = win0_12.index t (0 : Fin 2) ∧ win0_0.index t (1 : Fin 2) = 0 :=
  (by decide +kernel : ∀ t : Fin grid0.N, win0_0.index t (0 : Fin 2) = win0_12.index t (0 : Fin 2) ∧ win0_0.index t (1 : Fin 2) = 0)
theorem facts1 : ∀ t : Fin cfg0.N, win0_1.index t (0 : Fin 2) = win0_12.index t (0 : Fin 2) ∧ win0_1.index t (1 : Fin 2) = 0 :=
  (by decide +kernel : ∀ t : Fin grid0.N, win0_1.index t (0 : Fin 2) = win0_12.index t (0 : Fin 2) ∧ win0_1.index t (1 : Fin 2) = 0)
theorem facts2 : ∀ t : Fin cfg0.N, win0_2.index t (0 : Fin 2) = win0_12.index t (0 : Fin 2) ∧ win0_2.index t (1 : Fin 2) = win0_12.index t (1 : Fin 2) :=
  (by decide +kernel : ∀ t : Fin grid0.N, win0_2.index t (0 : Fin 2) = win0_12.index t (0 : Fin 2) ∧ win0_2.index t (1 : Fin 2) = win0_12.index t (1 : Fin 2))
theorem facts3 : ∀ t : Fin cfg0.N, win0_3.index t (0 : Fin 2) = 0 ∧ win0_3.index t (1 : Fin 2) = win0_12.index t (1 : Fin 2) :=
  (by decide +kernel : ∀ t : Fin grid0.N, win0_3.index t (0 : Fin 2) = 0 ∧ win0_3.index t (1 : Fin 2) = win0_12.index t (1 : Fin 2))
theorem facts4 : ∀ t : Fin cfg0.N, win0_4.index t (0 : Fin 2) = 0 ∧ win0_4.index t (1 : Fin 2) = win0_12.index t (1 : Fin 2) :=
  (by decide +kernel : ∀ t : Fin grid0.N, win0_4.index t (0 : Fin 2) = 0 ∧ win0_4.index t (1 : Fin 2) = win0_12.index t (1 : Fin 2))
theorem facts5 : ∀ t : Fin cfg0.N, win0_5.index t (0 : Fin 2) = 0 ∧ win0_5.index t (1 : Fin 2) = win0_12.index t (1 : Fin 2) :=
  (by decide +kernel : ∀ t : Fin grid0.N, win0_5.index t (0 : Fin 2) = 0 ∧ win0_5.index t (1 : Fin 2) = win0_12.index t (1 : Fin 2))
theorem facts6 : ∀ t : Fin cfg0.N, win0_6.index t (0 : Fin 2) = 0 ∧ win0_6.index t (1 : Fin 2) = win0_12.index t (1 : Fin 2) :=
  (by decide +kernel : ∀ t : Fin grid0.N, win0_6.index t (0 : Fin 2) = 0 ∧ win0_6.index t (1 : Fin 2) = win0_12.index t (1 : Fin 2))
theorem facts7 : ∀ t : Fin cfg0.N, win0_7.index t (0 : Fin 2) = 0 ∧ win0_7.index t (1 : Fin 2) = win0_12.index t (1 : Fin 2) :=
  (by decide +kernel : ∀ t : Fin grid0.N, win0_7.index t (0 : Fin 2) = 0 ∧ win0_7.index t (1 : Fin 2) = win0_12.index t (1 : Fin 2))
theorem facts8 : ∀ t : Fin cfg0.N, win0_8.index t (0 : Fin 2) = 0 ∧ win0_8.index t (1 : Fin 2) = win0_12.index t (1 : Fin 2) :=
  (by decide +kernel : ∀ t : Fin grid0.N, win0_8.index t (0 : Fin 2) = 0 ∧ win0_8.index t (1 : Fin 2) = win0_12.index t (1 : Fin 2))
theorem facts9 : ∀ t : Fin cfg0.N, win0_9.index t (0 : Fin 2) = 0 ∧ win0_9.index t (1 : Fin 2) = win0_12.index t (1 : Fin 2) :=
  (by decide +kernel : ∀ t : Fin grid0.N, win0_9.index t (0 : Fin 2) = 0 ∧ win0_9.index t (1 : Fin 2) = win0_12.index t (1 : Fin 2))
theorem facts10 : ∀ t : Fin cfg0.N, win0_10.index t (0 : Fin 2) = 0 ∧ win0_10.index t (1 : Fin 2) = win0_12.index t (1 : Fin 2) :=
  (by decide +kernel : ∀ t : Fin grid0.N, win0_10.index t (0 : Fin 2) = 0 ∧ win0_10.index t (1 : Fin 2) = win0_12.index t (1 : Fin 2))
theorem facts11 : ∀ t : Fin cfg0.N, win0_11.index t (0 : Fin 2) = 0 ∧ win0_11.index t (1 : Fin 2) = win0_12.index t (1 : Fin 2) :=
  (by decide +kernel : ∀ t : Fin grid0.N, win0_11.index t (0 : Fin 2) = 0 ∧ win0_11.index t (1 : Fin 2) = win0_12.index t (1 : Fin 2))

/-! ## The blocks read off the arrays -/

/-- Row p of the x block at point t is row 256·bi + p of x. -/
theorem rd0 (c : Dev nD) (t : Fin cfg0.N) (p : Fin 256) (k : Fin 2048) (r : Fin 4096) (hr : r.val = win0_12.index t (0 : Fin 2) * 256 + p.val) :
    Hand.iblk m c 0 t (ix2 p k) = EX m c (ix2 r k) := by
  obtain ⟨e0, e1⟩ := facts0 t
  show EX m c (((cfg0.win 0).blk t).view.emb (ix2 p k)) = _
  refine congrArg (EX m c) (funext fun a => Fin.ext ?_)
  match a with
  | ⟨0, _⟩ => show win0_0.index t (0 : Fin 2) * 256 + 1 * p.val = r.val; omega
  | ⟨1, _⟩ => show win0_0.index t (1 : Fin 2) * 2048 + 1 * k.val = k.val; omega
/-- The same for h. -/
theorem rd1 (c : Dev nD) (t : Fin cfg0.N) (p : Fin 256) (k : Fin 2048) (r : Fin 4096) (hr : r.val = win0_12.index t (0 : Fin 2) * 256 + p.val) :
    Hand.iblk m c 1 t (ix2 p k) = EH m c (ix2 r k) := by
  obtain ⟨e0, e1⟩ := facts1 t
  show EH m c (((cfg0.win 1).blk t).view.emb (ix2 p k)) = _
  refine congrArg (EH m c) (funext fun a => Fin.ext ?_)
  match a with
  | ⟨0, _⟩ => show win0_1.index t (0 : Fin 2) * 256 + 1 * p.val = r.val; omega
  | ⟨1, _⟩ => show win0_1.index t (1 : Fin 2) * 2048 + 1 * k.val = k.val; omega
/-- Entry (p, q) of the c tile is entry (256·bi + p, 256·hi + q) of c. -/
theorem rd2 (c : Dev nD) (t : Fin cfg0.N) (p q : Fin 256) (r : Fin 4096) (j : Fin 2048)
    (hr : r.val = win0_12.index t (0 : Fin 2) * 256 + p.val) (hj : j.val = win0_12.index t (1 : Fin 2) * 256 + q.val) :
    Hand.iblk m c 2 t (ix2 p q) = EC m c (ix2 r j) := by
  obtain ⟨e0, e1⟩ := facts2 t
  show EC m c (((cfg0.win 2).blk t).view.emb (ix2 p q)) = _
  refine congrArg (EC m c) (funext fun a => Fin.ext ?_)
  match a with
  | ⟨0, _⟩ => show win0_2.index t (0 : Fin 2) * 256 + 1 * p.val = r.val; omega
  | ⟨1, _⟩ => show win0_2.index t (1 : Fin 2) * 256 + 1 * q.val = j.val; omega
/-- Column q of a weight block is column 256·hi + q of the weight matrix (eight windows). -/
theorem rd3 (c : Dev nD) (t : Fin cfg0.N) (k : Fin 2048) (q : Fin 256) (j : Fin 2048) (hj : j.val = win0_12.index t (1 : Fin 2) * 256 + q.val) :
    Hand.iblk m c 3 t (ix2 k q) = EW3 m c (ix2 k j) := by
  obtain ⟨e0, e1⟩ := facts3 t
  show EW3 m c (((cfg0.win 3).blk t).view.emb (ix2 k q)) = _
  refine congrArg (EW3 m c) (funext fun a => Fin.ext ?_)
  match a with
  | ⟨0, _⟩ => show win0_3.index t (0 : Fin 2) * 2048 + 1 * k.val = k.val; omega
  | ⟨1, _⟩ => show win0_3.index t (1 : Fin 2) * 256 + 1 * q.val = j.val; omega
theorem rd4 (c : Dev nD) (t : Fin cfg0.N) (k : Fin 2048) (q : Fin 256) (j : Fin 2048) (hj : j.val = win0_12.index t (1 : Fin 2) * 256 + q.val) :
    Hand.iblk m c 4 t (ix2 k q) = EW4 m c (ix2 k j) := by
  obtain ⟨e0, e1⟩ := facts4 t
  show EW4 m c (((cfg0.win 4).blk t).view.emb (ix2 k q)) = _
  refine congrArg (EW4 m c) (funext fun a => Fin.ext ?_)
  match a with
  | ⟨0, _⟩ => show win0_4.index t (0 : Fin 2) * 2048 + 1 * k.val = k.val; omega
  | ⟨1, _⟩ => show win0_4.index t (1 : Fin 2) * 256 + 1 * q.val = j.val; omega
theorem rd5 (c : Dev nD) (t : Fin cfg0.N) (k : Fin 2048) (q : Fin 256) (j : Fin 2048) (hj : j.val = win0_12.index t (1 : Fin 2) * 256 + q.val) :
    Hand.iblk m c 5 t (ix2 k q) = EW5 m c (ix2 k j) := by
  obtain ⟨e0, e1⟩ := facts5 t
  show EW5 m c (((cfg0.win 5).blk t).view.emb (ix2 k q)) = _
  refine congrArg (EW5 m c) (funext fun a => Fin.ext ?_)
  match a with
  | ⟨0, _⟩ => show win0_5.index t (0 : Fin 2) * 2048 + 1 * k.val = k.val; omega
  | ⟨1, _⟩ => show win0_5.index t (1 : Fin 2) * 256 + 1 * q.val = j.val; omega
theorem rd6 (c : Dev nD) (t : Fin cfg0.N) (k : Fin 2048) (q : Fin 256) (j : Fin 2048) (hj : j.val = win0_12.index t (1 : Fin 2) * 256 + q.val) :
    Hand.iblk m c 6 t (ix2 k q) = EW6 m c (ix2 k j) := by
  obtain ⟨e0, e1⟩ := facts6 t
  show EW6 m c (((cfg0.win 6).blk t).view.emb (ix2 k q)) = _
  refine congrArg (EW6 m c) (funext fun a => Fin.ext ?_)
  match a with
  | ⟨0, _⟩ => show win0_6.index t (0 : Fin 2) * 2048 + 1 * k.val = k.val; omega
  | ⟨1, _⟩ => show win0_6.index t (1 : Fin 2) * 256 + 1 * q.val = j.val; omega
theorem rd7 (c : Dev nD) (t : Fin cfg0.N) (k : Fin 2048) (q : Fin 256) (j : Fin 2048) (hj : j.val = win0_12.index t (1 : Fin 2) * 256 + q.val) :
    Hand.iblk m c 7 t (ix2 k q) = EW7 m c (ix2 k j) := by
  obtain ⟨e0, e1⟩ := facts7 t
  show EW7 m c (((cfg0.win 7).blk t).view.emb (ix2 k q)) = _
  refine congrArg (EW7 m c) (funext fun a => Fin.ext ?_)
  match a with
  | ⟨0, _⟩ => show win0_7.index t (0 : Fin 2) * 2048 + 1 * k.val = k.val; omega
  | ⟨1, _⟩ => show win0_7.index t (1 : Fin 2) * 256 + 1 * q.val = j.val; omega
theorem rd8 (c : Dev nD) (t : Fin cfg0.N) (k : Fin 2048) (q : Fin 256) (j : Fin 2048) (hj : j.val = win0_12.index t (1 : Fin 2) * 256 + q.val) :
    Hand.iblk m c 8 t (ix2 k q) = EW8 m c (ix2 k j) := by
  obtain ⟨e0, e1⟩ := facts8 t
  show EW8 m c (((cfg0.win 8).blk t).view.emb (ix2 k q)) = _
  refine congrArg (EW8 m c) (funext fun a => Fin.ext ?_)
  match a with
  | ⟨0, _⟩ => show win0_8.index t (0 : Fin 2) * 2048 + 1 * k.val = k.val; omega
  | ⟨1, _⟩ => show win0_8.index t (1 : Fin 2) * 256 + 1 * q.val = j.val; omega
theorem rd9 (c : Dev nD) (t : Fin cfg0.N) (k : Fin 2048) (q : Fin 256) (j : Fin 2048) (hj : j.val = win0_12.index t (1 : Fin 2) * 256 + q.val) :
    Hand.iblk m c 9 t (ix2 k q) = EW9 m c (ix2 k j) := by
  obtain ⟨e0, e1⟩ := facts9 t
  show EW9 m c (((cfg0.win 9).blk t).view.emb (ix2 k q)) = _
  refine congrArg (EW9 m c) (funext fun a => Fin.ext ?_)
  match a with
  | ⟨0, _⟩ => show win0_9.index t (0 : Fin 2) * 2048 + 1 * k.val = k.val; omega
  | ⟨1, _⟩ => show win0_9.index t (1 : Fin 2) * 256 + 1 * q.val = j.val; omega
theorem rd10 (c : Dev nD) (t : Fin cfg0.N) (k : Fin 2048) (q : Fin 256) (j : Fin 2048) (hj : j.val = win0_12.index t (1 : Fin 2) * 256 + q.val) :
    Hand.iblk m c 10 t (ix2 k q) = EW10 m c (ix2 k j) := by
  obtain ⟨e0, e1⟩ := facts10 t
  show EW10 m c (((cfg0.win 10).blk t).view.emb (ix2 k q)) = _
  refine congrArg (EW10 m c) (funext fun a => Fin.ext ?_)
  match a with
  | ⟨0, _⟩ => show win0_10.index t (0 : Fin 2) * 2048 + 1 * k.val = k.val; omega
  | ⟨1, _⟩ => show win0_10.index t (1 : Fin 2) * 256 + 1 * q.val = j.val; omega
/-- Column q of the bias block is column 256·hi + q of the stacked bias. -/
theorem rd11 (c : Dev nD) (t : Fin cfg0.N) (g : Fin 4) (q : Fin 256) (j : Fin 2048) (hj : j.val = win0_12.index t (1 : Fin 2) * 256 + q.val) :
    Hand.iblk m c 11 t (ix2 g q) = EB m c (ix2 g j) := by
  obtain ⟨e0, e1⟩ := facts11 t
  show EB m c (((cfg0.win 11).blk t).view.emb (ix2 g q)) = _
  refine congrArg (EB m c) (funext fun a => Fin.ext ?_)
  match a with
  | ⟨0, _⟩ => show win0_11.index t (0 : Fin 2) * 4 + 1 * g.val = g.val; omega
  | ⟨1, _⟩ => show win0_11.index t (1 : Fin 2) * 256 + 1 * q.val = j.val; omega

/-! ## What each point writes back -/

/-- What point t writes back into the cell result is block t of GC. -/
theorem flushed13_eq (c : Dev nD) (t : Fin cfg0.N) :
    (Hand.dats m 0 c).flushed 13 t = ((cfg0.win 13).blk t).view.read (Elt Ideal) (GC m c) := by
  show (cfg0.win 13).cut (grid0.coords t) ((Hand.dats m 0 c).after 13 t) = _
  rw [Hand.after13, Blocks.cOut_eq]
  funext y
  have hy0 : (y 0).val < 256 := (y 0).isLt
  have hy1 : (y 1).val < 256 := (y 1).isLt
  obtain ⟨b0, b1⟩ := bounds12 t
  obtain ⟨e0, e1⟩ := facts13 t
  have ey : y = ix2 (⟨(y 0).val, hy0⟩ : Fin 256) (⟨(y 1).val, hy1⟩ : Fin 256) := funext fun a => by
    match a with
    | ⟨0, _⟩ => rfl
    | ⟨1, _⟩ => rfl
  have key := Blocks.cPay_apply (Hand.iblk m c 0 t) (Hand.iblk m c 1 t) (Hand.iblk m c 2 t) (Hand.iblk m c 3 t) (Hand.iblk m c 4 t)
    (Hand.iblk m c 5 t) (Hand.iblk m c 6 t) (Hand.iblk m c 9 t) (Hand.iblk m c 10 t) (Hand.iblk m c 11 t)
    (EX m c) (EH m c) (EC m c) (EW3 m c) (EW4 m c) (EW5 m c) (EW6 m c) (EW9 m c) (EW10 m c) (EB m c)
    (⟨win0_12.index t (0 : Fin 2) * 256 + (y 0).val, by omega⟩ : Fin 4096) (⟨win0_12.index t (1 : Fin 2) * 256 + (y 1).val, by omega⟩ : Fin 2048)
    (⟨(y 0).val, hy0⟩ : Fin 256) (⟨(y 1).val, hy1⟩ : Fin 256)
    (fun k => rd0 m c t _ k _ rfl) (fun k => rd1 m c t _ k _ rfl) (rd2 m c t _ _ _ _ rfl rfl)
    (fun k => rd3 m c t k _ _ rfl) (fun k => rd4 m c t k _ _ rfl) (fun k => rd5 m c t k _ _ rfl) (fun k => rd6 m c t k _ _ rfl)
    (fun k => rd9 m c t k _ _ rfl) (fun k => rd10 m c t k _ _ rfl) (fun g => rd11 m c t g _ _ rfl)
  refine ((congrArg (Blocks.cPay (Hand.iblk m c 0 t) (Hand.iblk m c 1 t) (Hand.iblk m c 2 t) (Hand.iblk m c 3 t) (Hand.iblk m c 4 t)
    (Hand.iblk m c 5 t) (Hand.iblk m c 6 t) (Hand.iblk m c 9 t) (Hand.iblk m c 10 t) (Hand.iblk m c 11 t)) ey).trans key).trans ?_
  show _ = GC m c (((cfg0.win 13).blk t).view.emb y)
  unfold GC
  have hr : (⟨win0_12.index t (0 : Fin 2) * 256 + (y 0).val, by omega⟩ : Fin 4096)
      = ⟨((((cfg0.win 13).blk t).view.emb y) 0).val, ((((cfg0.win 13).blk t).view.emb y) 0).isLt⟩ :=
    Fin.ext (by show win0_12.index t (0 : Fin 2) * 256 + (y 0).val = win0_13.index t (0 : Fin 2) * 256 + 1 * (y 0).val; omega)
  have hj : (⟨win0_12.index t (1 : Fin 2) * 256 + (y 1).val, by omega⟩ : Fin 2048)
      = ⟨((((cfg0.win 13).blk t).view.emb y) 1).val, ((((cfg0.win 13).blk t).view.emb y) 1).isLt⟩ :=
    Fin.ext (by show win0_12.index t (1 : Fin 2) * 256 + (y 1).val = win0_13.index t (1 : Fin 2) * 256 + 1 * (y 1).val; omega)
  rw [hr, hj]

/-- What point t writes back into the hidden result is block t of GH. -/
theorem flushed12_eq (c : Dev nD) (t : Fin cfg0.N) :
    (Hand.dats m 0 c).flushed 12 t = ((cfg0.win 12).blk t).view.read (Elt Ideal) (GH m c) := by
  show (cfg0.win 12).cut (grid0.coords t) ((Hand.dats m 0 c).after 12 t) = _
  rw [Hand.after12, Blocks.hOut_eq]
  funext y
  have hy0 : (y 0).val < 256 := (y 0).isLt
  have hy1 : (y 1).val < 256 := (y 1).isLt
  obtain ⟨b0, b1⟩ := bounds12 t
  have ey : y = ix2 (⟨(y 0).val, hy0⟩ : Fin 256) (⟨(y 1).val, hy1⟩ : Fin 256) := funext fun a => by
    match a with
    | ⟨0, _⟩ => rfl
    | ⟨1, _⟩ => rfl
  have key := Blocks.hPay_apply (Hand.iblk m c 0 t) (Hand.iblk m c 1 t) (Hand.iblk m c 2 t) (Hand.iblk m c 3 t) (Hand.iblk m c 4 t)
    (Hand.iblk m c 5 t) (Hand.iblk m c 6 t) (Hand.iblk m c 7 t) (Hand.iblk m c 8 t) (Hand.iblk m c 9 t) (Hand.iblk m c 10 t) (Hand.iblk m c 11 t)
    (EX m c) (EH m c) (EC m c) (EW3 m c) (EW4 m c) (EW5 m c) (EW6 m c) (EW7 m c) (EW8 m c) (EW9 m c) (EW10 m c) (EB m c)
    (⟨win0_12.index t (0 : Fin 2) * 256 + (y 0).val, by omega⟩ : Fin 4096) (⟨win0_12.index t (1 : Fin 2) * 256 + (y 1).val, by omega⟩ : Fin 2048)
    (⟨(y 0).val, hy0⟩ : Fin 256) (⟨(y 1).val, hy1⟩ : Fin 256)
    (fun k => rd0 m c t _ k _ rfl) (fun k => rd1 m c t _ k _ rfl) (rd2 m c t _ _ _ _ rfl rfl)
    (fun k => rd3 m c t k _ _ rfl) (fun k => rd4 m c t k _ _ rfl) (fun k => rd5 m c t k _ _ rfl) (fun k => rd6 m c t k _ _ rfl)
    (fun k => rd7 m c t k _ _ rfl) (fun k => rd8 m c t k _ _ rfl)
    (fun k => rd9 m c t k _ _ rfl) (fun k => rd10 m c t k _ _ rfl) (fun g => rd11 m c t g _ _ rfl)
  refine ((congrArg (Blocks.hPay (Hand.iblk m c 0 t) (Hand.iblk m c 1 t) (Hand.iblk m c 2 t) (Hand.iblk m c 3 t) (Hand.iblk m c 4 t)
    (Hand.iblk m c 5 t) (Hand.iblk m c 6 t) (Hand.iblk m c 7 t) (Hand.iblk m c 8 t) (Hand.iblk m c 9 t) (Hand.iblk m c 10 t) (Hand.iblk m c 11 t)) ey).trans key).trans ?_
  show _ = GH m c (((cfg0.win 12).blk t).view.emb y)
  unfold GH
  have hr : (⟨win0_12.index t (0 : Fin 2) * 256 + (y 0).val, by omega⟩ : Fin 4096)
      = ⟨((((cfg0.win 12).blk t).view.emb y) 0).val, ((((cfg0.win 12).blk t).view.emb y) 0).isLt⟩ :=
    Fin.ext (by show win0_12.index t (0 : Fin 2) * 256 + (y 0).val = win0_12.index t (0 : Fin 2) * 256 + 1 * (y 0).val; omega)
  have hj : (⟨win0_12.index t (1 : Fin 2) * 256 + (y 1).val, by omega⟩ : Fin 2048)
      = ⟨((((cfg0.win 12).blk t).view.emb y) 1).val, ((((cfg0.win 12).blk t).view.emb y) 1).isLt⟩ :=
    Fin.ext (by show win0_12.index t (1 : Fin 2) * 256 + (y 1).val = win0_12.index t (1 : Fin 2) * 256 + 1 * (y 1).val; omega)
  rw [hr, hj]

/-! ## The tiles cover the arrays -/

theorem mem_blk12 (t : Fin cfg0.N) (i : S4096x2048.Idx) :
    i ∈ ((cfg0.win 12).blk t).view.set ↔ ∀ a : Fin 2, win0_12.index t a * S256x256.size a ≤ (i a).val ∧ (i a).val < win0_12.index t a * S256x256.size a + S256x256.size a := by
  show i ∈ ((View.whole main_v10_0).slice (win0_12.rect t)).set ↔ _
  rw [View.set_slice_whole, Rect.mem_set_unit]
  exact Iff.rfl
theorem mem_blk13 (t : Fin cfg0.N) (i : S4096x2048.Idx) :
    i ∈ ((cfg0.win 13).blk t).view.set ↔ ∀ a : Fin 2, win0_13.index t a * S256x256.size a ≤ (i a).val ∧ (i a).val < win0_13.index t a * S256x256.size a + S256x256.size a := by
  show i ∈ ((View.whole main_v10_1).slice (win0_13.rect t)).set ↔ _
  rw [View.set_slice_whole, Rect.mem_set_unit]
  exact Iff.rfl

/-- Entry (r, j) lies in the tile (r / 256, j / 256), which some point writes back. -/
theorem cover12 (i : S4096x2048.Idx) : ∃ t : Fin cfg0.N, (cfg0.win 12).flush t = true ∧ i ∈ ((cfg0.win 12).blk t).view.set := by
  have hi0 : (i 0).val < 4096 := (i 0).isLt
  have hi1 : (i 1).val < 2048 := (i 1).isLt
  obtain ⟨t, ht⟩ := onto12 ⟨(i 0).val / 256, by omega⟩ ⟨(i 1).val / 256, by omega⟩
  have q0 : win0_12.index t (0 : Fin 2) = (i 0).val / 256 := congrFun ht 0
  have q1 : win0_12.index t (1 : Fin 2) = (i 1).val / 256 := congrFun ht 1
  refine ⟨t, flush0_12 t, ?_⟩
  rw [mem_blk12]
  intro a
  match a with
  | ⟨0, _⟩ => show win0_12.index t (0 : Fin 2) * 256 ≤ (i 0).val ∧ (i 0).val < win0_12.index t (0 : Fin 2) * 256 + 256; omega
  | ⟨1, _⟩ => show win0_12.index t (1 : Fin 2) * 256 ≤ (i 1).val ∧ (i 1).val < win0_12.index t (1 : Fin 2) * 256 + 256; omega
theorem cover13 (i : S4096x2048.Idx) : ∃ t : Fin cfg0.N, (cfg0.win 13).flush t = true ∧ i ∈ ((cfg0.win 13).blk t).view.set := by
  have hi0 : (i 0).val < 4096 := (i 0).isLt
  have hi1 : (i 1).val < 2048 := (i 1).isLt
  obtain ⟨t, ht⟩ := onto13 ⟨(i 0).val / 256, by omega⟩ ⟨(i 1).val / 256, by omega⟩
  have q0 : win0_13.index t (0 : Fin 2) = (i 0).val / 256 := congrFun ht 0
  have q1 : win0_13.index t (1 : Fin 2) = (i 1).val / 256 := congrFun ht 1
  refine ⟨t, flush0_13 t, ?_⟩
  rw [mem_blk13]
  intro a
  match a with
  | ⟨0, _⟩ => show win0_13.index t (0 : Fin 2) * 256 ≤ (i 0).val ∧ (i 0).val < win0_13.index t (0 : Fin 2) * 256 + 256; omega
  | ⟨1, _⟩ => show win0_13.index t (1 : Fin 2) * 256 ≤ (i 1).val ∧ (i 1).val < win0_13.index t (1 : Fin 2) * 256 + 256; omega

/-! ## The result arrays after the region -/

theorem final12 (c : Dev nD) : (Hand.dats m 0 c).arrAt 12 cfg0.N = GH m c :=
  (Hand.dats m 0 c).arrAt_eq_of_cover 12 (GH m c) (fun t _ => flushed12_eq m c t) cover12
theorem final13 (c : Dev nD) : (Hand.dats m 0 c).arrAt 13 cfg0.N = GC m c :=
  (Hand.dats m 0 c).arrAt_eq_of_cover 13 (GC m c) (fun t _ => flushed13_eq m c t) cover13

end Cert.KernelIdeal.Arrays

end
-- ==== Proof.KernelRun.lean ====
/-
  The run of the LSTM step's program, read: both results as functions of the arguments.

  After the region the hidden and cell matrices are re-laid as 1 × 4096 × 2048 arrays. The region's result arrays are
  the cell's and the hidden state's formulas of the arrays the region found, and those are x, h, c as matrices, the
  weight matrices as launched, and the stacked bias whose row g is bias vector g: so the program's two results are
  the step's HOut and COut of its fifteen arguments, which it leaves unchanged.
-/
import proofs.«110121_j33423435498395_2_alg».proof.Proof.FrameIdeal
import proofs.«110121_j33423435498395_2_alg».proof.Proof.Arrays
import proofs.«110121_j33423435498395_2_alg».proof.Proof.Entry
import proofs.«110121_j33423435498395_2_alg».proof.Proof.LstmSpec
import Idealize.ShloMosaic.Lib.Pipeline.Value
import Idealize.ShloMosaic.Lib.StableHlo.Run

noncomputable section

namespace Cert.KernelIdeal.Run

open Cert.KernelIdeal Cert.KernelIdeal.Gen Cert.KernelIdeal.Entry Cert.KernelIdeal.Arrays Cert.Lstm
open Idealize.ShloMosaic Idealize.ShloMosaic.TcCoe Idealize.ShloMosaic.ValueIdx Idealize.ShloMosaic.StableHlo Idealize.SL.Sem

variable (m : (ℓ : Loc nD τ sig) → Buf (Elt Ideal) ℓ) (ρ : Dev nD → PrngReg)

/-- Row g of the stacked bias, as a function of the column, is bias vector g. -/
theorem bias_rows (c : Dev nD) :
    (fun j => EB m c (ix2 0 j)) = row (m ((c : Thread nD τ).loc main_arg11))
    ∧ (fun j => EB m c (ix2 1 j)) = row (m ((c : Thread nD τ).loc main_arg12))
    ∧ (fun j => EB m c (ix2 2 j)) = row (m ((c : Thread nD τ).loc main_arg13))
    ∧ (fun j => EB m c (ix2 3 j)) = row (m ((c : Thread nD τ).loc main_arg14)) :=
  ⟨funext fun j => (entry_b_rows m c j).1, funext fun j => (entry_b_rows m c j).2.1,
   funext fun j => (entry_b_rows m c j).2.2.1, funext fun j => (entry_b_rows m c j).2.2.2⟩

/-- The hidden matrix the region leaves, at (r, k), is the step's hidden result at (0, r, k). -/
theorem GH_eq (c : Dev nD) (y : S1x4096x2048.Idx) :
    GH m c (ix2 (⟨(y 1).val, (y 1).isLt⟩ : Fin 4096) (⟨(y 2).val, (y 2).isLt⟩ : Fin 2048))
      = HOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) y := by
  obtain ⟨b0, b1, b2, b3⟩ := bias_rows m c
  unfold GH HOut
  rw [entry_x, entry_h, entry_c, b0, b1, b2, b3,
    show EW3 m c = m ((c : Thread nD τ).loc main_arg3) from Hand.V_main_arg3 m c,
    show EW4 m c = m ((c : Thread nD τ).loc main_arg4) from Hand.V_main_arg4 m c,
    show EW5 m c = m ((c : Thread nD τ).loc main_arg5) from Hand.V_main_arg5 m c,
    show EW6 m c = m ((c : Thread nD τ).loc main_arg6) from Hand.V_main_arg6 m c,
    show EW7 m c = m ((c : Thread nD τ).loc main_arg7) from Hand.V_main_arg7 m c,
    show EW8 m c = m ((c : Thread nD τ).loc main_arg8) from Hand.V_main_arg8 m c,
    show EW9 m c = m ((c : Thread nD τ).loc main_arg9) from Hand.V_main_arg9 m c,
    show EW10 m c = m ((c : Thread nD τ).loc main_arg10) from Hand.V_main_arg10 m c]
  rfl

/-- The same for the cell matrix. -/
theorem GC_eq (c : Dev nD) (y : S1x4096x2048.Idx) :
    GC m c (ix2 (⟨(y 1).val, (y 1).isLt⟩ : Fin 4096) (⟨(y 2).val, (y 2).isLt⟩ : Fin 2048))
      = COut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (m ((c : Thread nD τ).loc main_arg11)) (m ((c : Thread nD τ).loc main_arg12)) (m ((c : Thread nD τ).loc main_arg14)) y := by
  obtain ⟨b0, b1, b2, b3⟩ := bias_rows m c
  unfold GC COut
  rw [entry_x, entry_h, entry_c, b0, b1, b3,
    show EW3 m c = m ((c : Thread nD τ).loc main_arg3) from Hand.V_main_arg3 m c,
    show EW4 m c = m ((c : Thread nD τ).loc main_arg4) from Hand.V_main_arg4 m c,
    show EW5 m c = m ((c : Thread nD τ).loc main_arg5) from Hand.V_main_arg5 m c,
    show EW6 m c = m ((c : Thread nD τ).loc main_arg6) from Hand.V_main_arg6 m c,
    show EW9 m c = m ((c : Thread nD τ).loc main_arg9) from Hand.V_main_arg9 m c,
    show EW10 m c = m ((c : Thread nD τ).loc main_arg10) from Hand.V_main_arg10 m c]
  rfl

/-- The first result after the two reshapes: the hidden matrix re-laid. -/
theorem tail11 (c : Dev nD) :
    Pipeline.afterTail₀ cfgs (Hand.dats m) 0 (Hand.V0 m) [hostOps1] c main_v11
      = HOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  have e : Pipeline.afterTail₀ cfgs (Hand.dats m) 0 (Hand.V0 m) [hostOps1] c main_v11
      = shapeCast S1x4096x2048 (GH m c) shapeCasts_S4096x2048_S1x4096x2048 := by
    unfold Pipeline.afterTail₀
    show StableHlo.after hostOps1 _ (Proc.devRef .tc main_v11) = _
    after_results
    exact congrArg (fun z => shapeCast S1x4096x2048 z shapeCasts_S4096x2048_S1x4096x2048)
      ((Pipeline.withArrays_arr spec0 launch0.win.arr_inj c _ _ 12).trans (final12 m c))
  rw [e]
  funext y
  exact (unflat (GH m c) _ y).trans (GH_eq m c y)

/-- The second result: the cell matrix re-laid. -/
theorem tail12 (c : Dev nD) :
    Pipeline.afterTail₀ cfgs (Hand.dats m) 0 (Hand.V0 m) [hostOps1] c main_v12
      = COut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (m ((c : Thread nD τ).loc main_arg11)) (m ((c : Thread nD τ).loc main_arg12)) (m ((c : Thread nD τ).loc main_arg14)) := by
  have e : Pipeline.afterTail₀ cfgs (Hand.dats m) 0 (Hand.V0 m) [hostOps1] c main_v12
      = shapeCast S1x4096x2048 (GC m c) shapeCasts_S4096x2048_S1x4096x2048 := by
    unfold Pipeline.afterTail₀
    show StableHlo.after hostOps1 _ (Proc.devRef .tc main_v12) = _
    after_results
    exact congrArg (fun z => shapeCast S1x4096x2048 z shapeCasts_S4096x2048_S1x4096x2048)
      ((Pipeline.withArrays_arr spec0 launch0.win.arr_inj c _ _ 13).trans (final13 m c))
  rw [e]
  funext y
  exact (unflat (GC m c) _ y).trans (GC_eq m c y)

/-- Every weakly fair execution of the program from a memory with zero counters terminates without a fault, its two
    results the step's hidden and cell states of the fifteen arguments, the arguments unchanged. -/
theorem run : θ_run defs (onTc (τ := τ) (main (F := Ideal))) ⟨m, fun _ => 0, ρ⟩ (fun r => ∀ c : Dev nD,
      r.2.mem ((c.tc : Thread nD τ).loc main_v11) = HOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_v12) = COut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨((h c).2 main_v11 (Pipeline.mem_restRefs_of main_v11 (by decide) (by decide))).trans (tail11 m c),
     ((h c).2 main_v12 (Pipeline.mem_restRefs_of main_v12 (by decide) (by decide))).trans (tail12 m c),
     Hand.args_kept m (Hand.dats m) (Hand.A_eq m) r h c⟩)
    (Hand.run_main m ρ)

end Cert.KernelIdeal.Run

end
-- ==== Proof.RefValue.lean ====
/-
  The reference's LSTM step, read entry by entry.

  The reference joins the four input-side weight matrices side by side into one 2048 × 8192 matrix (and the four
  hidden-side ones, and the four bias vectors into one of 8192 entries), forms all four gates' pre-activations in
  one 4096 × 8192 matrix — two products added, plus the joined bias repeated down the rows —, cuts that into four
  blocks of 2048 columns (input, forget, output, candidate), and applies the logistic written out as
  1 / (1 + e^(-z)) and the hyperbolic tangent. Column 2048·g + j of a side-by-side join is column j of piece g, so
  block g of the pre-activations is gate g's own formula, and the two results are the step's (LstmSpec).
-/
import proofs.«110121_j33423435498395_2_alg».proof.Proof.Gen.ReferenceIdeal.Read
import proofs.«110121_j33423435498395_2_alg».proof.Proof.LstmSpec
import Idealize.ShloMosaic.Lib.Pipeline.Value
import Idealize.ShloMosaic.Lib.ValueIdx
import Idealize.ShloMosaic.Lib.IdealHost

noncomputable section

open scoped BigOperators

namespace Cert.ReferenceIdeal.RefValue

open Cert.ReferenceIdeal Cert.ReferenceIdeal.Gen Cert.ReferenceIdeal.Read Cert.Lstm
open Idealize.ShloMosaic Idealize.ShloMosaic.ValueIdx

/-- Column 2048·g + j of four matrices joined side by side is column j of matrix g. -/
theorem cat_cols (w0 w1 w2 w3 : S2048x2048.Idx → EReal) (h : Shape.Concatenates [S2048x2048, S2048x2048, S2048x2048, S2048x2048] S2048x8192 1)
    (k j : Fin 2048) :
    concatenate S2048x8192 1 [⟨S2048x2048, w0⟩, ⟨S2048x2048, w1⟩, ⟨S2048x2048, w2⟩, ⟨S2048x2048, w3⟩] h (ix2 k (⟨j.val, by omega⟩ : Fin 8192)) = w0 (ix2 k j)
    ∧ concatenate S2048x8192 1 [⟨S2048x2048, w0⟩, ⟨S2048x2048, w1⟩, ⟨S2048x2048, w2⟩, ⟨S2048x2048, w3⟩] h (ix2 k (⟨2048 + j.val, by omega⟩ : Fin 8192)) = w1 (ix2 k j)
    ∧ concatenate S2048x8192 1 [⟨S2048x2048, w0⟩, ⟨S2048x2048, w1⟩, ⟨S2048x2048, w2⟩, ⟨S2048x2048, w3⟩] h (ix2 k (⟨4096 + j.val, by omega⟩ : Fin 8192)) = w2 (ix2 k j)
    ∧ concatenate S2048x8192 1 [⟨S2048x2048, w0⟩, ⟨S2048x2048, w1⟩, ⟨S2048x2048, w2⟩, ⟨S2048x2048, w3⟩] h (ix2 k (⟨6144 + j.val, by omega⟩ : Fin 8192)) = w3 (ix2 k j) := by
  have off : ∀ (J : Fin 8192) (b : Fin S2048x2048.rank), b.cast (rfl : S2048x2048.rank = S2048x8192.rank) ≠ (1 : Fin S2048x8192.rank) →
      ((ix2 k j : S2048x2048.Idx) b).val = ((ix2 k J : S2048x8192.Idx) (b.cast rfl)).val := fun J b hb => by
    match b with
    | ⟨0, _⟩ => rfl
    | ⟨1, _⟩ => exact absurd rfl hb
  refine ⟨?_, ?_, ?_, ?_⟩
  · exact concatenate_apply_piece 1 [⟨S2048x2048, w0⟩, ⟨S2048x2048, w1⟩, ⟨S2048x2048, w2⟩, ⟨S2048x2048, w3⟩] h _ 0 (by show 0 < 4; omega)
      S2048x2048 w0 rfl rfl 0 (by rfl) (ix2 k j) (off _) (by show 0 + j.val = j.val; omega)
  · exact concatenate_apply_piece 1 [⟨S2048x2048, w0⟩, ⟨S2048x2048, w1⟩, ⟨S2048x2048, w2⟩, ⟨S2048x2048, w3⟩] h _ 1 (by show 1 < 4; omega)
      S2048x2048 w1 rfl rfl 2048 (by rfl) (ix2 k j) (off _) (by show 2048 + j.val = 2048 + j.val; rfl)
  · exact concatenate_apply_piece 1 [⟨S2048x2048, w0⟩, ⟨S2048x2048, w1⟩, ⟨S2048x2048, w2⟩, ⟨S2048x2048, w3⟩] h _ 2 (by show 2 < 4; omega)
      S2048x2048 w2 rfl rfl 4096 (by rfl) (ix2 k j) (off _) (by show 4096 + j.val = 4096 + j.val; rfl)
  · exact concatenate_apply_piece 1 [⟨S2048x2048, w0⟩, ⟨S2048x2048, w1⟩, ⟨S2048x2048, w2⟩, ⟨S2048x2048, w3⟩] h _ 3 (by show 3 < 4; omega)
      S2048x2048 w3 rfl rfl 6144 (by rfl) (ix2 k j) (off _) (by show 6144 + j.val = 6144 + j.val; rfl)

/-- Entry 2048·g + j of four vectors joined end to end is entry j of vector g. -/
theorem cat_vecs (b0 b1 b2 b3 : S2048.Idx → EReal) (h : Shape.Concatenates [S2048, S2048, S2048, S2048] S8192 0) (j : Fin 2048) :
    concatenate S8192 0 [⟨S2048, b0⟩, ⟨S2048, b1⟩, ⟨S2048, b2⟩, ⟨S2048, b3⟩] h (ix1 (⟨j.val, by omega⟩ : Fin 8192)) = b0 (ix1 j)
    ∧ concatenate S8192 0 [⟨S2048, b0⟩, ⟨S2048, b1⟩, ⟨S2048, b2⟩, ⟨S2048, b3⟩] h (ix1 (⟨2048 + j.val, by omega⟩ : Fin 8192)) = b1 (ix1 j)
    ∧ concatenate S8192 0 [⟨S2048, b0⟩, ⟨S2048, b1⟩, ⟨S2048, b2⟩, ⟨S2048, b3⟩] h (ix1 (⟨4096 + j.val, by omega⟩ : Fin 8192)) = b2 (ix1 j)
    ∧ concatenate S8192 0 [⟨S2048, b0⟩, ⟨S2048, b1⟩, ⟨S2048, b2⟩, ⟨S2048, b3⟩] h (ix1 (⟨6144 + j.val, by omega⟩ : Fin 8192)) = b3 (ix1 j) := by
  have off : ∀ (J : Fin 8192) (b : Fin S2048.rank), b.cast (rfl : S2048.rank = S8192.rank) ≠ (0 : Fin S8192.rank) →
      ((ix1 j : S2048.Idx) b).val = ((ix1 J : S8192.Idx) (b.cast rfl)).val := fun J b hb => by
    match b with
    | ⟨0, _⟩ => exact absurd rfl hb
  refine ⟨?_, ?_, ?_, ?_⟩
  · exact concatenate_apply_piece 0 [⟨S2048, b0⟩, ⟨S2048, b1⟩, ⟨S2048, b2⟩, ⟨S2048, b3⟩] h _ 0 (by show 0 < 4; omega)
      S2048 b0 rfl rfl 0 (by rfl) (ix1 j) (off _) (by show 0 + j.val = j.val; omega)
  · exact concatenate_apply_piece 0 [⟨S2048, b0⟩, ⟨S2048, b1⟩, ⟨S2048, b2⟩, ⟨S2048, b3⟩] h _ 1 (by show 1 < 4; omega)
      S2048 b1 rfl rfl 2048 (by rfl) (ix1 j) (off _) (by show 2048 + j.val = 2048 + j.val; rfl)
  · exact concatenate_apply_piece 0 [⟨S2048, b0⟩, ⟨S2048, b1⟩, ⟨S2048, b2⟩, ⟨S2048, b3⟩] h _ 2 (by show 2 < 4; omega)
      S2048 b2 rfl rfl 4096 (by rfl) (ix1 j) (off _) (by show 4096 + j.val = 4096 + j.val; rfl)
  · exact concatenate_apply_piece 0 [⟨S2048, b0⟩, ⟨S2048, b1⟩, ⟨S2048, b2⟩, ⟨S2048, b3⟩] h _ 3 (by show 3 < 4; omega)
      S2048 b3 rfl rfl 6144 (by rfl) (ix1 j) (off _) (by show 6144 + j.val = 6144 + j.val; rfl)

/-- The logistic written as one over one plus the exponential of the negation. -/
theorem sig_eq (z : EReal) :
    FloatOps.hostDivf (F := Ideal) (φ := .f32) (FloatOps.ofBits .f32 0x3F800000#32)
      (FloatOps.addf (FloatOps.ofBits .f32 0x3F800000#32) (FloatOps.hostUnary .exp (FloatOps.hostNegf z))) = Ideal.logistic z := by
  show Ideal.div (Ideal.ofBits .f32 0x3F800000#32) (Ideal.ofBits .f32 0x3F800000#32 + Ideal.exp (-z)) = _
  rw [Ideal.ofBits_one_f32]
  rfl

variable (x0 x1 x2 : S1x4096x2048.Idx → EReal) (x3 x4 x5 x6 x7 x8 x9 x10 : S2048x2048.Idx → EReal) (x11 x12 x13 x14 : S2048.Idx → EReal)

/-- The joined pre-activations at row r, joined column J. -/
theorem pre_apply (r : Fin 4096) (J : Fin 8192) :
    val_main_v11 (F := Ideal) x0 x1 x3 x4 x5 x6 x7 x8 x9 x10 x11 x12 x13 x14 (ix2 r J)
      = ((∑ k : Fin 2048, flat x0 (ix2 r k) * val_main_v3 (F := Ideal) x3 x5 x7 x9 (ix2 k J))
          + (∑ k : Fin 2048, flat x1 (ix2 r k) * val_main_v4 (F := Ideal) x4 x6 x8 x10 (ix2 k J)))
        + val_main_v5 (F := Ideal) x11 x12 x13 x14 (ix1 J) := by
  have e0 : val_main_v0 (F := Ideal) x0 = flat x0 := relaid _ _
  have e1 : val_main_v1 (F := Ideal) x1 = flat x1 := relaid _ _
  have il : ∀ k, lidx_main_v6 (ix2 r J) k = ix2 r k := fun k => funext fun a => Fin.ext (by
    match a with
    | ⟨0, _⟩ => rfl
    | ⟨1, _⟩ => rfl)
  have ir : ∀ k, ridx_main_v6 (ix2 r J) k = ix2 k J := fun k => funext fun a => Fin.ext (by
    match a with
    | ⟨0, _⟩ => rfl
    | ⟨1, _⟩ => rfl)
  have il7 : ∀ k, lidx_main_v7 (ix2 r J) k = ix2 r k := fun k => funext fun a => Fin.ext (by
    match a with
    | ⟨0, _⟩ => rfl
    | ⟨1, _⟩ => rfl)
  have ir7 : ∀ k, ridx_main_v7 (ix2 r J) k = ix2 k J := fun k => funext fun a => Fin.ext (by
    match a with
    | ⟨0, _⟩ => rfl
    | ⟨1, _⟩ => rfl)
  have ib : idx_main_v9 (idx_main_v10 (ix2 r J)) = ix1 J := funext fun a => Fin.ext (by
    match a with
    | ⟨0, _⟩ => rfl)
  rw [val_main_v11_apply, val_main_v8_apply, val_main_v6_apply, val_main_v7_apply, val_main_v10_apply, val_main_v9_apply, e0, e1, ib]
  simp only [il, ir, il7, ir7]
  rfl

/-- Block g of the joined pre-activations is gate g's own pre-activation: the input gate, -/
theorem gate_i (r : Fin 4096) (j : Fin 2048) :
    val_main_v11 (F := Ideal) x0 x1 x3 x4 x5 x6 x7 x8 x9 x10 x11 x12 x13 x14 (ix2 r (⟨j.val, by omega⟩ : Fin 8192)) = gateAt (flat x0) (flat x1) x3 x4 (row x11) r j := by
  have hw := fun k => (cat_cols x3 x5 x7 x9 concatenates_S2048x2048_S2048x2048_S2048x2048_S2048x2048_S2048x8192_d1 k j).1
  have hh := fun k => (cat_cols x4 x6 x8 x10 concatenates_S2048x2048_S2048x2048_S2048x2048_S2048x2048_S2048x8192_d1 k j).1
  have hb := (cat_vecs x11 x12 x13 x14 concatenates_S2048_S2048_S2048_S2048_S8192_d0 j).1
  rw [pre_apply]
  unfold gateAt val_main_v3 val_main_v4 val_main_v5
  simp only [hw, hh, hb]
  rfl
/-- the forget gate, -/
theorem gate_f (r : Fin 4096) (j : Fin 2048) :
    val_main_v11 (F := Ideal) x0 x1 x3 x4 x5 x6 x7 x8 x9 x10 x11 x12 x13 x14 (ix2 r (⟨2048 + j.val, by omega⟩ : Fin 8192)) = gateAt (flat x0) (flat x1) x5 x6 (row x12) r j := by
  have hw := fun k => (cat_cols x3 x5 x7 x9 concatenates_S2048x2048_S2048x2048_S2048x2048_S2048x2048_S2048x8192_d1 k j).2.1
  have hh := fun k => (cat_cols x4 x6 x8 x10 concatenates_S2048x2048_S2048x2048_S2048x2048_S2048x2048_S2048x8192_d1 k j).2.1
  have hb := (cat_vecs x11 x12 x13 x14 concatenates_S2048_S2048_S2048_S2048_S8192_d0 j).2.1
  rw [pre_apply]
  unfold gateAt val_main_v3 val_main_v4 val_main_v5
  simp only [hw, hh, hb]
  rfl
/-- the output gate, -/
theorem gate_o (r : Fin 4096) (j : Fin 2048) :
    val_main_v11 (F := Ideal) x0 x1 x3 x4 x5 x6 x7 x8 x9 x10 x11 x12 x13 x14 (ix2 r (⟨4096 + j.val, by omega⟩ : Fin 8192)) = gateAt (flat x0) (flat x1) x7 x8 (row x13) r j := by
  have hw := fun k => (cat_cols x3 x5 x7 x9 concatenates_S2048x2048_S2048x2048_S2048x2048_S2048x2048_S2048x8192_d1 k j).2.2.1
  have hh := fun k => (cat_cols x4 x6 x8 x10 concatenates_S2048x2048_S2048x2048_S2048x2048_S2048x2048_S2048x8192_d1 k j).2.2.1
  have hb := (cat_vecs x11 x12 x13 x14 concatenates_S2048_S2048_S2048_S2048_S8192_d0 j).2.2.1
  rw [pre_apply]
  unfold gateAt val_main_v3 val_main_v4 val_main_v5
  simp only [hw, hh, hb]
  rfl
/-- and the candidate. -/
theorem gate_c (r : Fin 4096) (j : Fin 2048) :
    val_main_v11 (F := Ideal) x0 x1 x3 x4 x5 x6 x7 x8 x9 x10 x11 x12 x13 x14 (ix2 r (⟨6144 + j.val, by omega⟩ : Fin 8192)) = gateAt (flat x0) (flat x1) x9 x10 (row x14) r j := by
  have hw := fun k => (cat_cols x3 x5 x7 x9 concatenates_S2048x2048_S2048x2048_S2048x2048_S2048x2048_S2048x8192_d1 k j).2.2.2
  have hh := fun k => (cat_cols x4 x6 x8 x10 concatenates_S2048x2048_S2048x2048_S2048x2048_S2048x2048_S2048x8192_d1 k j).2.2.2
  have hb := (cat_vecs x11 x12 x13 x14 concatenates_S2048_S2048_S2048_S2048_S8192_d0 j).2.2.2
  rw [pre_apply]
  unfold gateAt val_main_v3 val_main_v4 val_main_v5
  simp only [hw, hh, hb]
  rfl

/-- The four blocks cut out of the joined pre-activations. -/
theorem sl_i (r : Fin 4096) (j : Fin 2048) :
    val_main_v12 (F := Ideal) x0 x1 x3 x4 x5 x6 x7 x8 x9 x10 x11 x12 x13 x14 (ix2 r j) = gateAt (flat x0) (flat x1) x3 x4 (row x11) r j := by
  have e : idx_main_v12 (ix2 r j) = ix2 r (⟨j.val, by omega⟩ : Fin 8192) := funext fun a => Fin.ext (by
    match a with
    | ⟨0, _⟩ => rfl
    | ⟨1, _⟩ => rfl)
  rw [val_main_v12_apply, e]
  exact gate_i x0 x1 x3 x4 x5 x6 x7 x8 x9 x10 x11 x12 x13 x14 r j
theorem sl_f (r : Fin 4096) (j : Fin 2048) :
    val_main_v13 (F := Ideal) x0 x1 x3 x4 x5 x6 x7 x8 x9 x10 x11 x12 x13 x14 (ix2 r j) = gateAt (flat x0) (flat x1) x5 x6 (row x12) r j := by
  have e : idx_main_v13 (ix2 r j) = ix2 r (⟨2048 + j.val, by omega⟩ : Fin 8192) := funext fun a => Fin.ext (by
    match a with
    | ⟨0, _⟩ => rfl
    | ⟨1, _⟩ => rfl)
  rw [val_main_v13_apply, e]
  exact gate_f x0 x1 x3 x4 x5 x6 x7 x8 x9 x10 x11 x12 x13 x14 r j
theorem sl_o (r : Fin 4096) (j : Fin 2048) :
    val_main_v14 (F := Ideal) x0 x1 x3 x4 x5 x6 x7 x8 x9 x10 x11 x12 x13 x14 (ix2 r j) = gateAt (flat x0) (flat x1) x7 x8 (row x13) r j := by
  have e : idx_main_v14 (ix2 r j) = ix2 r (⟨4096 + j.val, by omega⟩ : Fin 8192) := funext fun a => Fin.ext (by
    match a with
    | ⟨0, _⟩ => rfl
    | ⟨1, _⟩ => rfl)
  rw [val_main_v14_apply, e]
  exact gate_o x0 x1 x3 x4 x5 x6 x7 x8 x9 x10 x11 x12 x13 x14 r j
theorem sl_c (r : Fin 4096) (j : Fin 2048) :
    val_main_v15 (F := Ideal) x0 x1 x3 x4 x5 x6 x7 x8 x9 x10 x11 x12 x13 x14 (ix2 r j) = gateAt (flat x0) (flat x1) x9 x10 (row x14) r j := by
  have e : idx_main_v15 (ix2 r j) = ix2 r (⟨6144 + j.val, by omega⟩ : Fin 8192) := funext fun a => Fin.ext (by
    match a with
    | ⟨0, _⟩ => rfl
    | ⟨1, _⟩ => rfl)
  rw [val_main_v15_apply, e]
  exact gate_c x0 x1 x3 x4 x5 x6 x7 x8 x9 x10 x11 x12 x13 x14 r j

/-- The three logistic gates. -/
theorem sg_i (r : Fin 4096) (j : Fin 2048) :
    val_main_v21 (F := Ideal) x0 x1 x3 x4 x5 x6 x7 x8 x9 x10 x11 x12 x13 x14 (ix2 r j) = Ideal.logistic (gateAt (flat x0) (flat x1) x3 x4 (row x11) r j) := by
  rw [val_main_v21_apply, val_main_v20_apply, val_main_cst_0_apply, val_main_v19_apply, val_main_v18_apply, val_main_cst_apply,
    val_main_v17_apply, val_main_v16_apply, sl_i]
  exact sig_eq _
theorem sg_f (r : Fin 4096) (j : Fin 2048) :
    val_main_v27 (F := Ideal) x0 x1 x3 x4 x5 x6 x7 x8 x9 x10 x11 x12 x13 x14 (ix2 r j) = Ideal.logistic (gateAt (flat x0) (flat x1) x5 x6 (row x12) r j) := by
  rw [val_main_v27_apply, val_main_v26_apply, val_main_cst_2_apply, val_main_v25_apply, val_main_v24_apply, val_main_cst_1_apply,
    val_main_v23_apply, val_main_v22_apply, sl_f]
  exact sig_eq _
theorem sg_o (r : Fin 4096) (j : Fin 2048) :
    val_main_v33 (F := Ideal) x0 x1 x3 x4 x5 x6 x7 x8 x9 x10 x11 x12 x13 x14 (ix2 r j) = Ideal.logistic (gateAt (flat x0) (flat x1) x7 x8 (row x13) r j) := by
  rw [val_main_v33_apply, val_main_v32_apply, val_main_cst_4_apply, val_main_v31_apply, val_main_v30_apply, val_main_cst_3_apply,
    val_main_v29_apply, val_main_v28_apply, sl_o]
  exact sig_eq _

/-- The new cell entry. -/
theorem cell_apply (r : Fin 4096) (j : Fin 2048) :
    val_main_v37 (F := Ideal) x0 x1 x2 x3 x4 x5 x6 x7 x8 x9 x10 x11 x12 x13 x14 (ix2 r j)
      = cellAt (flat x0) (flat x1) (flat x2) x3 x4 x5 x6 x9 x10 (row x11) (row x12) (row x14) r j := by
  have e2 : val_main_v2 (F := Ideal) x2 = flat x2 := relaid _ _
  rw [val_main_v37_apply, val_main_v34_apply, val_main_v36_apply, val_main_v35_apply, e2, sg_f, sg_i, sl_c]
  rfl

/-- The new hidden entry. -/
theorem hid_apply (r : Fin 4096) (j : Fin 2048) :
    val_main_v39 (F := Ideal) x0 x1 x2 x3 x4 x5 x6 x7 x8 x9 x10 x11 x12 x13 x14 (ix2 r j)
      = hidAt (flat x0) (flat x1) (flat x2) x3 x4 x5 x6 x7 x8 x9 x10 (row x11) (row x12) (row x13) (row x14) r j := by
  rw [val_main_v39_apply, val_main_v38_apply, sg_o, cell_apply]
  rfl

/-- The reference's two results are the step's. -/
theorem res_h : val_main_v40 (F := Ideal) x0 x1 x2 x3 x4 x5 x6 x7 x8 x9 x10 x11 x12 x13 x14 = HOut x0 x1 x2 x3 x4 x5 x6 x7 x8 x9 x10 x11 x12 x13 x14 := by
  funext y
  have e : idx_main_v40 y = ix2 (⟨(y 1).val, (y 1).isLt⟩ : Fin 4096) (⟨(y 2).val, (y 2).isLt⟩ : Fin 2048) := funext fun a => Fin.ext (by
    match a with
    | ⟨0, _⟩ => rfl
    | ⟨1, _⟩ => rfl)
  rw [val_main_v40_apply, e, hid_apply]
  rfl
theorem res_c : val_main_v41 (F := Ideal) x0 x1 x2 x3 x4 x5 x6 x7 x8 x9 x10 x11 x12 x13 x14 = COut x0 x1 x2 x3 x4 x5 x6 x9 x10 x11 x12 x14 := by
  funext y
  have e : idx_main_v41 y = ix2 (⟨(y 1).val, (y 1).isLt⟩ : Fin 4096) (⟨(y 2).val, (y 2).isLt⟩ : Fin 2048) := funext fun a => Fin.ext (by
    match a with
    | ⟨0, _⟩ => rfl
    | ⟨1, _⟩ => rfl)
  rw [val_main_v41_apply, e, cell_apply]
  rfl

end Cert.ReferenceIdeal.RefValue

end
-- ==== Proof.lean ====
/-
  One LSTM step, as a pipelined kernel over 256 × 256 tiles and as four host matrix products fused into two, are the
  same function of their fifteen arguments at the extended reals.

  With x, h, c (4096 rows of 2048 entries), eight 2048 × 2048 weight matrices and four bias vectors, both programs
  compute, at row r and column j,

      gate_g(r, j) = (Σ_k x(r,k) · Wx_g(k,j) + Σ_k h(r,k) · Wh_g(k,j)) + b_g(j)      for the gates g = i, f, o, c,
      c'(r, j) = c(r, j) · σ(gate_f(r, j)) + σ(gate_i(r, j)) · tanh(gate_c(r, j)),
      h'(r, j) = σ(gate_o(r, j)) · tanh(c'(r, j)),                                      σ(z) = 1 / (1 + e^(-z)).

  The kernel forms each 256 × 256 tile of c' and h' from 256 rows of x and h, a tile of c and 256 columns of the
  weights and of the stacked biases; the reference joins the weights of the four gates side by side, multiplies once
  per operand and cuts the result into the four gates' blocks. Nothing is rearranged inside a sum, no product is
  distributed and nothing is cancelled: the two sides are the same expression entry by entry, so no use is made of
  the inputs being finite. Rounding x, h and the weights to a narrower format is the identity at the extended reals,
  and the idealized kernel is the kernel's own text read there (nothing was rewritten).
  The frames (each program runs to the end without a fault and leaves its arguments as they were) come from the
  pipeline's launch theorem for the two kernel programs (FrameBits, FrameIdeal) and from the reference's run.
-/
import proofs.«110121_j33423435498395_2_alg».proof.Defs
import proofs.«110121_j33423435498395_2_alg».proof.Proof.Gen.Kernel
import proofs.«110121_j33423435498395_2_alg».proof.Proof.Gen.KernelIdeal
import proofs.«110121_j33423435498395_2_alg».proof.Proof.Gen.ReferenceIdeal
import proofs.«110121_j33423435498395_2_alg».proof.Proof.Gen.ReferenceIdeal.Run
import proofs.«110121_j33423435498395_2_alg».proof.Proof.Gen.ReferenceIdeal.Read
import proofs.«110121_j33423435498395_2_alg».proof.Proof.Gen.Pre_finite_inputs
import proofs.«110121_j33423435498395_2_alg».proof.Proof.FrameBits
import proofs.«110121_j33423435498395_2_alg».proof.Proof.FrameIdeal
import proofs.«110121_j33423435498395_2_alg».proof.Proof.KernelRun
import proofs.«110121_j33423435498395_2_alg».proof.Proof.RefValue
import Idealize.ShloMosaic.Adequacy
import Idealize.ShloMosaic.Init

noncomputable section

namespace Cert.Proof

open Idealize.ShloMosaic Idealize.SL.Sem

/-- The kernel as printed runs and keeps its arguments. -/
theorem frame_k : Cert.frame_Kernel := fun m ρ _ => Cert.Kernel.Hand.frame m ρ

/-- So does the kernel read at the extended reals. -/
theorem frame_ki : Cert.frame_KernelIdeal := fun m ρ _ => Cert.KernelIdeal.Hand.frame m ρ

/-- The reference is a straight line of host operations: its run keeps its arguments. -/
theorem frame_ri : Cert.frame_ReferenceIdeal := fun m ρ _ =>
  (θ_run Cert.ReferenceIdeal.defs _ _).mono (fun _ h c => (h c).2.2) (Cert.ReferenceIdeal.Value.run (F := Ideal) m ρ)

/-- Nothing was rewritten between the kernel and its reading at the extended reals. -/
theorem preserves : Cert.preserves_Kernel_KernelIdeal := trivial

/-- From memories agreeing on the arguments both programs end with the step's hidden and cell states of those
    arguments: the kernel by its run read tile by tile, the reference by its run read entry by entry. -/
theorem algebraic : Cert.algebraic_KernelIdeal_ReferenceIdeal := by
  intro m ρ m' ρ' _ hagree
  refine ⟨_, _, Cert.KernelIdeal.Run.run m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14⟩ := hagree c
    rw [Cert.ReferenceIdeal.Read.val_main_v40_eq, Cert.ReferenceIdeal.RefValue.res_h,
      a0, a1, a2, a3, a4, a5, a6, a7, a8, a9, a10, a11, a12, a13, a14]
  · obtain ⟨a0, a1, a2, a3, a4, a5, a6, a7, a8, a9, a10, a11, a12, a13, a14⟩ := hagree c
    rw [Cert.ReferenceIdeal.Read.val_main_v41_eq, Cert.ReferenceIdeal.RefValue.res_c,
      a0, a1, a2, a3, a4, a5, a6, a9, a10, a11, a12, a14]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
